-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  main_v3
-- ==== Kernel.lean ====
abbrev S16x3x512x512 : Shape := ⟨4, ![16, 3, 512, 512]⟩
abbrev S16x1x512x512 : Shape := ⟨4, ![16, 1, 512, 512]⟩
abbrev S1x3x512x512 : Shape := ⟨4, ![1, 3, 512, 512]⟩
abbrev S1x1x512x512 : Shape := ⟨4, ![1, 1, 512, 512]⟩
abbrev S3x512x512 : Shape := ⟨3, ![3, 512, 512]⟩
abbrev S512x512 : Shape := ⟨2, ![512, 512]⟩
abbrev S512x1 : Shape := ⟨2, ![512, 1]⟩
abbrev S512x526 : Shape := ⟨2, ![512, 526]⟩
abbrev S1x526 : Shape := ⟨2, ![1, 526]⟩
abbrev S526x526 : Shape := ⟨2, ![526, 526]⟩
abbrev S526x512 : Shape := ⟨2, ![526, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x3x512x512, .f32⟩
  | .hbm, ⟨1, _⟩ => ⟨S16x1x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .f32⟩
  | .local _ .vmem, ⟨3, _⟩ => ⟨S1x1x512x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  reduces_S3x512x512_S512x512 : S3x512x512.Reduces [0] S512x512
  slices_S512x512_o0_7_S512x1 : S512x512.Slices ![0, 7] S512x1
  slices_S512x512_o0_6_S512x1 : S512x512.Slices ![0, 6] S512x1
  slices_S512x512_o0_5_S512x1 : S512x512.Slices ![0, 5] S512x1
  slices_S512x512_o0_4_S512x1 : S512x512.Slices ![0, 4] S512x1
  slices_S512x512_o0_3_S512x1 : S512x512.Slices ![0, 3] S512x1
  slices_S512x512_o0_2_S512x1 : S512x512.Slices ![0, 2] S512x1
  slices_S512x512_o0_1_S512x1 : S512x512.Slices ![0, 1] S512x1
  slices_S512x512_o0_510_S512x1 : S512x512.Slices ![0, 510] S512x1
  slices_S512x512_o0_509_S512x1 : S512x512.Slices ![0, 509] S512x1
  slices_S512x512_o0_508_S512x1 : S512x512.Slices ![0, 508] S512x1
  slices_S512x512_o0_507_S512x1 : S512x512.Slices ![0, 507] S512x1
  slices_S512x512_o0_506_S512x1 : S512x512.Slices ![0, 506] S512x1
  slices_S512x512_o0_505_S512x1 : S512x512.Slices ![0, 505] S512x1
  slices_S512x512_o0_504_S512x1 : S512x512.Slices ![0, 504] S512x1
  concatenates_S512x1_S512x1_S512x1_S512x1_S512x1_S512x1_S512x1_S512x512_S512x1_S512x1_S512x1_S512x1_S512x1_S512x1_S512x1_S512x526_d1 : Shape.Concatenates [S512x1, S512x1, S512x1, S512x1, S512x1, S512x1, S512x1, S512x512, S512x1, S512x1, S512x1, S512x1, S512x1, S512x1, S512x1] S512x526 1
  slices_S512x526_o7_0_S1x526 : S512x526.Slices ![7, 0] S1x526
  slices_S512x526_o6_0_S1x526 : S512x526.Slices ![6, 0] S1x526
  slices_S512x526_o5_0_S1x526 : S512x526.Slices ![5, 0] S1x526
  slices_S512x526_o4_0_S1x526 : S512x526.Slices ![4, 0] S1x526
  slices_S512x526_o3_0_S1x526 : S512x526.Slices ![3, 0] S1x526
  slices_S512x526_o2_0_S1x526 : S512x526.Slices ![2, 0] S1x526
  slices_S512x526_o1_0_S1x526 : S512x526.Slices ![1, 0] S1x526
  slices_S512x526_o510_0_S1x526 : S512x526.Slices ![510, 0] S1x526
  slices_S512x526_o509_0_S1x526 : S512x526.Slices ![509, 0] S1x526
  slices_S512x526_o508_0_S1x526 : S512x526.Slices ![508, 0] S1x526
  slices_S512x526_o507_0_S1x526 : S512x526.Slices ![507, 0] S1x526
  slices_S512x526_o506_0_S1x526 : S512x526.Slices ![506, 0] S1x526
  slices_S512x526_o505_0_S1x526 : S512x526.Slices ![505, 0] S1x526
  slices_S512x526_o504_0_S1x526 : S512x526.Slices ![504, 0] S1x526
  concatenates_S1x526_S1x526_S1x526_S1x526_S1x526_S1x526_S1x526_S512x526_S1x526_S1x526_S1x526_S1x526_S1x526_S1x526_S1x526_S526x526_d0 : Shape.Concatenates [S1x526, S1x526, S1x526, S1x526, S1x526, S1x526, S1x526, S512x526, S1x526, S1x526, S1x526, S1x526, S1x526, S1x526, S1x526] S526x526 0
  rotates_S526x526_d1 : S526x526.Rotates 1 none
  slices_S526x526_o0_0_S526x512 : S526x526.Slices ![0, 0] S526x512
  rotates_S526x512_d0 : S526x512.Rotates 0 none
  slices_S526x512_o0_0_S512x512 : S526x512.Slices ![0, 0] S512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x7x512 : Shape := ⟨4, ![16, 1, 7, 512]⟩
abbrev S16x1x519x512 : Shape := ⟨4, ![16, 1, 519, 512]⟩
abbrev S16x1x526x512 : Shape := ⟨4, ![16, 1, 526, 512]⟩
abbrev S16x1x526x1 : Shape := ⟨4, ![16, 1, 526, 1]⟩
abbrev S16x1x526x7 : Shape := ⟨4, ![16, 1, 526, 7]⟩
abbrev S16x1x526x519 : Shape := ⟨4, ![16, 1, 526, 519]⟩
abbrev S16x1x526x526 : Shape := ⟨4, ![16, 1, 526, 526]⟩

abbrev nBuf : Space → Nat
  | .hbm => 24
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S_, .f32⟩
  | .hbm, ⟨2, _⟩ => ⟨S16x512x512, .f32⟩
  | .hbm, ⟨3, _⟩ => ⟨S16x1x512x512, .f32⟩
  | .hbm, ⟨4, _⟩ => ⟨S_, .i32⟩
  | .hbm, ⟨5, _⟩ => ⟨S16x1x1x512, .f32⟩
  | .hbm, ⟨6, _⟩ => ⟨S16x1x7x512, .f32⟩
  | .hbm, ⟨7, _⟩ => ⟨S16x1x7x512, .f32⟩
  | .hbm, ⟨8, _⟩ => ⟨S16x1x519x512, .f32⟩
  | .hbm, ⟨9, _⟩ => ⟨S16x1x1x512, .f32⟩
  | .hbm, ⟨10, _⟩ => ⟨S16x1x7x512, .f32⟩
  | .hbm, ⟨11, _⟩ => ⟨S16x1x7x512, .f32⟩
  | .hbm, ⟨12, _⟩ => ⟨S16x1x526x512, .f32⟩
  | .hbm, ⟨13, _⟩ => ⟨S16x1x526x1, .f32⟩
  | .hbm, ⟨14, _⟩ => ⟨S16x1x526x7, .f32⟩
  | .hbm, ⟨15, _⟩ => ⟨S16x1x526x7, .f32⟩
  | .hbm, ⟨16, _⟩ => ⟨S16x1x526x519, .f32⟩
  | .hbm, ⟨17, _⟩ => ⟨S16x1x526x1, .f32⟩
  | .hbm, ⟨18, _⟩ => ⟨S16x1x526x7, .f32⟩
  | .hbm, ⟨19, _⟩ => ⟨S16x1x526x7, .f32⟩
  | .hbm, ⟨20, _⟩ => ⟨S16x1x526x526, .f32⟩
  | .hbm, ⟨21, _⟩ => ⟨S_, .f32⟩
  | .hbm, ⟨22, _⟩ => ⟨S_, .f32⟩
  | .hbm, ⟨23, _⟩ => ⟨S16x1x512x512, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  reducesTo_S16x3x512x512_S16x512x512_d1 : S16x3x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  slices_S16x1x512x512_S16x1x1x512_0_0_0_0 : S16x1x512x512.Slices ![0, 0, 0, 0] S16x1x1x512
  slices_S16x1x512x512_S16x1x7x512_0_0_1_0 : S16x1x512x512.Slices ![0, 0, 1, 0] S16x1x7x512
  concatenates_S16x1x7x512_S16x1x512x512_S16x1x519x512_d2 : Shape.Concatenates [S16x1x7x512, S16x1x512x512] S16x1x519x512 2
  slices_S16x1x519x512_S16x1x1x512_0_0_518_0 : S16x1x519x512.Slices ![0, 0, 518, 0] S16x1x1x512
  slices_S16x1x519x512_S16x1x7x512_0_0_511_0 : S16x1x519x512.Slices ![0, 0, 511, 0] S16x1x7x512
  concatenates_S16x1x519x512_S16x1x7x512_S16x1x526x512_d2 : Shape.Concatenates [S16x1x519x512, S16x1x7x512] S16x1x526x512 2
  slices_S16x1x526x512_S16x1x526x1_0_0_0_0 : S16x1x526x512.Slices ![0, 0, 0, 0] S16x1x526x1
  slices_S16x1x526x512_S16x1x526x7_0_0_0_1 : S16x1x526x512.Slices ![0, 0, 0, 1] S16x1x526x7
  concatenates_S16x1x526x7_S16x1x526x512_S16x1x526x519_d3 : Shape.Concatenates [S16x1x526x7, S16x1x526x512] S16x1x526x519 3
  slices_S16x1x526x519_S16x1x526x1_0_0_0_518 : S16x1x526x519.Slices ![0, 0, 0, 518] S16x1x526x1
  slices_S16x1x526x519_S16x1x526x7_0_0_0_511 : S16x1x526x519.Slices ![0, 0, 0, 511] S16x1x526x7
  concatenates_S16x1x526x519_S16x1x526x7_S16x1x526x526_d3 : Shape.Concatenates [S16x1x526x519, S16x1x526x7] S16x1x526x526 3
  bcast_S_S_ : S_.BroadcastsInDim S_ (![] : Fin 0 → Fin S_.rank)
  reduceWindows_S16x1x526x526_S16x1x512x512_w1s1p0_0_w1s1p0_0_w15s1p0_0_w15s1p0_0 : S16x1x526x526.ReduceWindows (![1, 1, 15, 15] : Fin 4 → Nat) ![1, 1, 1, 1] ![0, 0, 0, 0] ![0, 0, 0, 0] S16x1x512x512

variable [Facts₀]

class Facts : Prop extends Facts₀ where

variable [Facts]
-- ==== Proof.LibSlidingMin.lean ====
/-
  Sliding-window minima in a linear order, read through their lower bounds.

  A minimum is determined by its lower bounds: `z ≤ min a b ↔ z ≤ a ∧ z ≤ b`. Two ways of taking the minimum of a run of
  consecutive entries of a sequence `a : ℕ → α` are read that way here, so that they can be compared with each other (or
  with an infimum over the run) with no regard to the order of evaluation and with nothing asked of the entries:

  * a LEFT FOLD of `min` along a list, from a start value (`le_foldl_min_iff`): the lower bounds of the start value and
    of every entry;
  * DOUBLING: one step replaces `u` by `s ↦ min (u s) (u (s + sh))` (`dbl sh u`; on a cyclic buffer, a rotation followed
    by an elementwise minimum). If `u s` is the minimum of the `k` entries from `s` on and `sh ≤ k`, the step gives the
    minimum of the `k + sh` entries from `s` on (`le_min_shift_iff`): the two runs overlap or touch, and taking an entry
    twice does no harm. Shifts `1, 2, 4` give runs of `2, 4, 8`; one more shift of `7` gives a run of `15`
    (`le_window15_iff`).

  Nothing here depends on a program: it is order theory over Mathlib.
-/
import Mathlib.Order.Lattice
import Mathlib.Order.Basic
import Mathlib.Data.List.Basic
import Mathlib.Tactic

namespace Cert.Dark

/-! ## A window minimum built by doubling -/

/-- One doubling step of a sliding minimum along a line `a : ℕ → α`: if the lower bounds of `u s` are the common lower
    bounds of the `k` entries `a s … a (s + k - 1)`, then those of `min (u s) (u (s + sh))` are the common lower bounds of
    the `k + sh` entries from `s` on, as long as the two runs overlap or touch (`sh ≤ k`). Shifts `1, 2, 4, 7` from a run
    of one give runs of `2, 4, 8, 15`. -/
theorem le_min_shift_iff {α : Type} [LinearOrder α] (a u : ℕ → α) (z : α) (k sh : ℕ) (hsh : sh ≤ k)
    (hu : ∀ s, z ≤ u s ↔ ∀ d, d < k → z ≤ a (s + d)) (s : ℕ) :
    z ≤ min (u s) (u (s + sh)) ↔ ∀ d, d < k + sh → z ≤ a (s + d) := by
  rw [le_min_iff, hu, hu]
  constructor
  · rintro ⟨h1, h2⟩ d hd
    by_cases hdk : d < k
    · exact h1 d hdk
    · have h3 := h2 (d - sh) (by omega)
      rwa [show s + sh + (d - sh) = s + d by omega] at h3
  · intro h
    refine ⟨fun d hd => h d (by omega), fun d hd => ?_⟩
    have h3 := h (sh + d) (by omega)
    rwa [← Nat.add_assoc] at h3

/-- One rotate-and-minimum step along a line, as an operator: entry `s` of the result is the smaller of entries `s` and
    `s + sh`. -/
def dbl {α : Type} [LinearOrder α] (sh : ℕ) (u : ℕ → α) : ℕ → α := fun s => min (u s) (u (s + sh))

/-- Four doubling steps with shifts `1, 2, 4, 7`: the lower bounds of the result at `s` are the common lower bounds of
    the fifteen entries `a s … a (s + 14)`. -/
theorem le_window15_iff {α : Type} [LinearOrder α] (a : ℕ → α) (z : α) (s : ℕ) :
    z ≤ dbl 7 (dbl 4 (dbl 2 (dbl 1 a))) s ↔ ∀ d, d < 15 → z ≤ a (s + d) := by
  have h0 : ∀ s, z ≤ a s ↔ ∀ d, d < 1 → z ≤ a (s + d) := fun s =>
    ⟨fun h d hd => by rwa [show s + d = s by omega], fun h => h 0 (by omega)⟩
  have h1 : ∀ s, z ≤ dbl 1 a s ↔ ∀ d, d < 2 → z ≤ a (s + d) := le_min_shift_iff a a z 1 1 le_rfl h0
  have h2 : ∀ s, z ≤ dbl 2 (dbl 1 a) s ↔ ∀ d, d < 4 → z ≤ a (s + d) := le_min_shift_iff a _ z 2 2 le_rfl h1
  have h3 : ∀ s, z ≤ dbl 4 (dbl 2 (dbl 1 a)) s ↔ ∀ d, d < 8 → z ≤ a (s + d) := le_min_shift_iff a _ z 4 4 le_rfl h2
  exact le_min_shift_iff a _ z 8 7 (by omega) h3 s

/-! ## A minimum folded along a list -/

/-- The lower bounds of a left fold of `min` from `v` over a list are the lower bounds of `v` and of every entry. -/
theorem le_foldl_min_iff {α ι : Type} [LinearOrder α] (g : ι → α) (z : α) :
    ∀ (l : List ι) (v : α), z ≤ l.foldl (fun r n => min r (g n)) v ↔ z ≤ v ∧ ∀ n ∈ l, z ≤ g n
  | [], v => by simp
  | n :: l, v => by
    rw [List.foldl_cons, le_foldl_min_iff g z l, le_min_iff]
    constructor
    · rintro ⟨⟨hv, hn⟩, hl⟩
      exact ⟨hv, fun k hk => by rcases List.mem_cons.1 hk with rfl | hk; exacts [hn, hl k hk]⟩
    · rintro ⟨hv, h⟩
      exact ⟨⟨hv, h n (List.mem_cons_self ..)⟩, fun k hk => h k (List.mem_cons_of_mem _ hk)⟩

end Cert.Dark
-- ==== Proof.DarkSpec.lean ====
/-
  The dark channel of an image batch, as ONE function of the argument array, and the order facts both programs' values
  are compared through.

  For an image `x : channel → row → column → extended real` the dark channel at pixel `(p, q)` is the infimum of
  `x c r s` over the three channels `c` and over the 15 × 15 window of pixels `(r, s)` centred at `(p, q)`, the image
  continued beyond its border by REFLECTION about the border pixel (no repetition of the edge): padded position `r`
  of `0 … 525` is image position `7 - r` for `r < 7`, `r - 7` for `7 ≤ r < 519`, and `1029 - r` (= `510 - (r - 519)`)
  from `519` on; the window of pixel `p` is the padded positions `p … p + 14`.

  An infimum over a finite family in a linear order is determined by its lower bounds: `z ≤ inf ↔ z ≤ every member`
  (`le_dark_iff`). Every minimum either program takes — over channels, over a window in one pass, or over a window in
  four doubling steps along each axis (Proof/LibSlidingMin.lean) — is read through that equivalence, so no order of
  evaluation ever matters and nothing is asked of the entries (infinite entries included).
-/
import Idealize.ShloMosaic.PureOps.Ideal
import Idealize.ShloMosaic.Lib.ValueIdx
import proofs.«127667_j8375186227709_2_alg».proof.Proof.LibSlidingMin

noncomputable section

namespace Cert.Dark

open Idealize.ShloMosaic Idealize.ShloMosaic.ValueIdx

/-! ## Reflection about the border, and the window's positions -/

/-- Padded position `r` (of `0 … 525`) as a position of the image: the reflection about the border pixel. -/
def refl (r : ℕ) : ℕ := if r < 7 then 7 - r else if r < 519 then r - 7 else 1029 - r

theorem refl_lt {r : ℕ} (h : r < 526) : refl r < 512 := by
  unfold refl; split_ifs <;> omega

theorem refl_of_lt {r : ℕ} (h : r < 7) : refl r = 7 - r := by unfold refl; rw [if_pos h]
theorem refl_of_mid {r : ℕ} (h : 7 ≤ r) (h' : r < 519) : refl r = r - 7 := by
  unfold refl; rw [if_neg (by omega), if_pos h']
theorem refl_of_ge {r : ℕ} (h : 519 ≤ r) : refl r = 1029 - r := by
  unfold refl; rw [if_neg (by omega), if_neg (by omega)]

/-- The same on bounded positions. -/
def reflF (r : Fin 526) : Fin 512 := ⟨refl r.val, refl_lt r.isLt⟩

@[simp] theorem reflF_val (r : Fin 526) : (reflF r).val = refl r.val := rfl

/-- Position `d` of the window of pixel `p`, in the padded image. -/
def wpos (p : Fin 512) (d : Fin 15) : Fin 526 := ⟨p.val + d.val, by omega⟩

@[simp] theorem wpos_val (p : Fin 512) (d : Fin 15) : (wpos p d).val = p.val + d.val := rfl

/-! ## The dark channel -/

/-- The dark channel of one image at pixel `(p, q)`. -/
def dark (x : Fin 3 → Fin 512 → Fin 512 → EReal) (p q : Fin 512) : EReal :=
  Finset.univ.inf fun w : Fin 15 × Fin 15 × Fin 3 => x w.2.2 (reflF (wpos p w.1)) (reflF (wpos q w.2.1))

/-- Its lower bounds are the common lower bounds of the window's entries in every channel. -/
theorem le_dark_iff (x : Fin 3 → Fin 512 → Fin 512 → EReal) (p q : Fin 512) (z : EReal) :
    z ≤ dark x p q ↔ ∀ (di dj : Fin 15) (c : Fin 3), z ≤ x c (reflF (wpos p di)) (reflF (wpos q dj)) := by
  unfold dark
  rw [Finset.le_inf_iff]
  constructor
  · intro h di dj c; exact h (di, dj, c) (Finset.mem_univ _)
  · intro h w _; exact h w.1 w.2.1 w.2.2

/-- Two extended reals with the same lower bounds are equal. -/
theorem eq_of_le_iff {a b : EReal} (h : ∀ z : EReal, z ≤ a ↔ z ≤ b) : a = b :=
  le_antisymm ((h a).1 le_rfl) ((h b).2 le_rfl)

/-- The dark channel of a batch `[16, 3, 512, 512]`, image by image: the array `[16, 1, 512, 512]` both programs end with. -/
def G (x : (⟨4, ![16, 3, 512, 512]⟩ : Shape).Idx → EReal) : (⟨4, ![16, 1, 512, 512]⟩ : Shape).Idx → EReal :=
  fun i => dark (fun c r s => x (ix4 (i 0 : Fin 16) c r s)) (i 2 : Fin 512) (i 3 : Fin 512)

theorem G_apply (x : (⟨4, ![16, 3, 512, 512]⟩ : Shape).Idx → EReal) (b : Fin 16) (u : Fin 1) (p q : Fin 512) :
    G x (ix4 b u p q) = dark (fun c r s => x (ix4 b c r s)) p q := rfl

end Cert.Dark

end
-- ==== Proof.KernelLayout.lean ====
/-
  The kernel's layout operations read at an index, for any element type: the tools.

  REFLECTION BY CONCATENATION. The kernel pads a 512 × 512 image `v` to 512 × 526 by laying, along the columns, the
  single columns 7, 6, …, 1 of `v`, then `v` itself, then its single columns 510, 509, …, 504; and pads the result `w` to
  526 × 526 the same way along the rows. A concatenation read at a position is the piece whose span along the axis
  holds the position, read at the position less the extents of the pieces before it; here a piece is either a single
  column (row) or the whole operand, and the two lemmas per axis below read those two kinds.

  ROTATION. A rotation of a 526-long axis by `526 - sh` places at position `s` the entry of position `s + sh` (mod 526).
  Continuing a row (or a column) periodically over all naturals, `line s := entry (s mod 526)`, turns it into a plain
  shift: `line (rotated) s = line s'` at `s' = s + sh`.
-/
import proofs.«127667_j8375186227709_2_alg».proof.KernelIdeal
import proofs.«127667_j8375186227709_2_alg».proof.Proof.DarkSpec
import Idealize.ShloMosaic.Lib.Pipeline.Value
import Idealize.ShloMosaic.Lib.KernelVsHost

noncomputable section

namespace Cert.KernelIdeal.Layout

open Idealize.ShloMosaic Idealize.ShloMosaic.ValueIdx Cert.KernelIdeal Cert.Dark

variable {α : Type}

/-- The extent of a piece of shape `s` along axis `a` of a rank-2 result, as a concatenation counts it. -/
abbrev ext2 (a : Fin 2) (s : Shape) : ℕ := if h : s.rank = 2 then s.size (a.cast h.symm) else 0

/-- The shapes of the fifteen pieces laid along the columns, and along the rows. -/
abbrev colShapes : List Shape := [S512x1, S512x1, S512x1, S512x1, S512x1, S512x1, S512x1, S512x512, S512x1, S512x1, S512x1, S512x1, S512x1, S512x1, S512x1]
abbrev rowShapes : List Shape := [S1x526, S1x526, S1x526, S1x526, S1x526, S1x526, S1x526, S512x526, S1x526, S1x526, S1x526, S1x526, S1x526, S1x526, S1x526]

/-! ## Pieces along the columns -/

/-- The one-column slice of `v` at column `o`, read at row `r`, is `v` at `(r, o)`. -/
theorem col_apply (v : S512x512.Idx → α) (o : ℕ) (h : S512x512.Slices ![0, o] S512x1) (r : Fin 512) (oF : Fin 512)
    (ho : oF.val = o) : extractStridedSlice S512x1 ![0, o] v h (ix2 r (0 : Fin 1)) = v (ix2 r oF) :=
  extractStridedSlice_apply _ _ _ _ _ (fun a => match a with
    | ⟨0, _⟩ => by show r.val = 0 + r.val; omega
    | ⟨1, _⟩ => by show oF.val = o + 0; omega)

/-- A concatenation along the columns into 512 × 526, at a position that a ONE-COLUMN piece holds (the pieces before it
    span exactly the columns before `s`): that piece's only column, same row. -/
theorem catCols_one (xs : List ((s : Shape) × (s.Idx → α))) (ss : List Shape) (hss : xs.map (·.1) = ss)
    (hc : Shape.Concatenates (xs.map (·.1)) S512x526 1)
    (r : Fin 512) (s : Fin 526) (k : ℕ) (hk : k < ss.length) (x₁ : S512x1.Idx → α)
    (hxk : xs[k]'(by rw [← hss, List.length_map] at hk; exact hk) = ⟨S512x1, x₁⟩)
    (hpre : ((ss.take k).map (ext2 1)).sum = s.val) :
    concatenate S512x526 1 xs hc (ix2 r s) = x₁ (ix2 r (0 : Fin 1)) :=
  concatenate_apply_piece 1 xs hc (ix2 r s) k (by rw [← hss, List.length_map] at hk; exact hk) S512x1 x₁ hxk rfl s.val
    (by rw [List.map_take, hss]; exact hpre) (ix2 r (0 : Fin 1))
    (fun b hb => match b with
      | ⟨0, _⟩ => rfl
      | ⟨1, _⟩ => absurd rfl hb)
    (by show s.val + 0 = s.val; omega)

/-- The same at a position that a full 512-column piece holds, `pre` columns after the start: its column `s - pre`. -/
theorem catCols_mid (xs : List ((s : Shape) × (s.Idx → α))) (ss : List Shape) (hss : xs.map (·.1) = ss)
    (hc : Shape.Concatenates (xs.map (·.1)) S512x526 1)
    (r : Fin 512) (s : Fin 526) (k : ℕ) (hk : k < ss.length) (x₁ : S512x512.Idx → α)
    (hxk : xs[k]'(by rw [← hss, List.length_map] at hk; exact hk) = ⟨S512x512, x₁⟩) (pre : ℕ)
    (hpre : ((ss.take k).map (ext2 1)).sum = pre) (q : Fin 512) (hq : pre + q.val = s.val) :
    concatenate S512x526 1 xs hc (ix2 r s) = x₁ (ix2 r q) :=
  concatenate_apply_piece 1 xs hc (ix2 r s) k (by rw [← hss, List.length_map] at hk; exact hk) S512x512 x₁ hxk rfl pre
    (by rw [List.map_take, hss]; exact hpre) (ix2 r q)
    (fun b hb => match b with
      | ⟨0, _⟩ => rfl
      | ⟨1, _⟩ => absurd rfl hb)
    hq

/-! ## Pieces along the rows -/

/-- The one-row slice of `w` at row `o`, read at column `s`, is `w` at `(o, s)`. -/
theorem row_apply (w : S512x526.Idx → α) (o : ℕ) (h : S512x526.Slices ![o, 0] S1x526) (s : Fin 526) (oF : Fin 512)
    (ho : oF.val = o) : extractStridedSlice S1x526 ![o, 0] w h (ix2 (0 : Fin 1) s) = w (ix2 oF s) :=
  extractStridedSlice_apply _ _ _ _ _ (fun a => match a with
    | ⟨0, _⟩ => by show oF.val = o + 0; omega
    | ⟨1, _⟩ => by show s.val = 0 + s.val; omega)

/-- A concatenation along the rows into 526 × 526, at a position that a ONE-ROW piece holds: that piece's only row. -/
theorem catRows_one (xs : List ((s : Shape) × (s.Idx → α))) (ss : List Shape) (hss : xs.map (·.1) = ss)
    (hc : Shape.Concatenates (xs.map (·.1)) S526x526 0)
    (r : Fin 526) (s : Fin 526) (k : ℕ) (hk : k < ss.length) (x₁ : S1x526.Idx → α)
    (hxk : xs[k]'(by rw [← hss, List.length_map] at hk; exact hk) = ⟨S1x526, x₁⟩)
    (hpre : ((ss.take k).map (ext2 0)).sum = r.val) :
    concatenate S526x526 0 xs hc (ix2 r s) = x₁ (ix2 (0 : Fin 1) s) :=
  concatenate_apply_piece 0 xs hc (ix2 r s) k (by rw [← hss, List.length_map] at hk; exact hk) S1x526 x₁ hxk rfl r.val
    (by rw [List.map_take, hss]; exact hpre) (ix2 (0 : Fin 1) s)
    (fun b hb => match b with
      | ⟨0, _⟩ => absurd rfl hb
      | ⟨1, _⟩ => rfl)
    (by show r.val + 0 = r.val; omega)

/-- The same at a position that the full 512-row piece holds, `pre` rows after the start: its row `r - pre`. -/
theorem catRows_mid (xs : List ((s : Shape) × (s.Idx → α))) (ss : List Shape) (hss : xs.map (·.1) = ss)
    (hc : Shape.Concatenates (xs.map (·.1)) S526x526 0)
    (r : Fin 526) (s : Fin 526) (k : ℕ) (hk : k < ss.length) (x₁ : S512x526.Idx → α)
    (hxk : xs[k]'(by rw [← hss, List.length_map] at hk; exact hk) = ⟨S512x526, x₁⟩) (pre : ℕ)
    (hpre : ((ss.take k).map (ext2 0)).sum = pre) (q : Fin 512) (hq : pre + q.val = r.val) :
    concatenate S526x526 0 xs hc (ix2 r s) = x₁ (ix2 q s) :=
  concatenate_apply_piece 0 xs hc (ix2 r s) k (by rw [← hss, List.length_map] at hk; exact hk) S512x526 x₁ hxk rfl pre
    (by rw [List.map_take, hss]; exact hpre) (ix2 q s)
    (fun b hb => match b with
      | ⟨0, _⟩ => absurd rfl hb
      | ⟨1, _⟩ => rfl)
    hq

/-! ## Rows and columns continued periodically, and rotation as a shift -/

/-- Position `s` of a 526-long axis, continued periodically. -/
def pos526 (s : ℕ) : Fin 526 := ⟨s % 526, Nat.mod_lt _ (by decide)⟩

theorem pos526_of_lt {s : ℕ} (h : s < 526) : pos526 s = ⟨s, h⟩ := Fin.ext (Nat.mod_eq_of_lt h)

/-- Row `r` of a 526 × 526 array as a periodic sequence of its columns. -/
def lineC (v : S526x526.Idx → α) (r : Fin 526) : ℕ → α := fun s => v (ix2 r (pos526 s))

/-- Column `s` of a 526 × 512 array as a periodic sequence of its rows. -/
def lineR (v : S526x512.Idx → α) (s : Fin 512) : ℕ → α := fun r => v (ix2 (pos526 r) s)

/-- Rotating the columns by `526 - sh` shifts every row's sequence by `sh`. -/
theorem lineC_rot (n : BitVec 32) (sh : ℕ) (hn : n.toNat % 526 + sh = 526) (v : S526x526.Idx → α)
    (h : S526x526.Rotates 1 none) (r : Fin 526) (s : ℕ) :
    lineC (dynamicRotate 1 n none v h) r s = lineC v r (s + sh) :=
  dynamicRotate_apply 1 n v h _ _ (fun b => match b with
    | ⟨0, _⟩ => by rw [if_neg (fun e => Nat.zero_ne_one (congrArg Fin.val e))]
    | ⟨1, hb⟩ => by
      rw [if_pos (show (⟨1, hb⟩ : Fin S526x526.rank) = 1 from rfl)]
      show (s + sh) % 526 = (s % 526 + 526 - n.toNat % 526) % 526
      omega)

/-- Rotating the rows by `526 - sh` shifts every column's sequence by `sh`. -/
theorem lineR_rot (n : BitVec 32) (sh : ℕ) (hn : n.toNat % 526 + sh = 526) (v : S526x512.Idx → α)
    (h : S526x512.Rotates 0 none) (s : Fin 512) (r : ℕ) :
    lineR (dynamicRotate 0 n none v h) s r = lineR v s (r + sh) :=
  dynamicRotate_apply 0 n v h _ _ (fun b => match b with
    | ⟨0, hb⟩ => by
      rw [if_pos (show (⟨0, hb⟩ : Fin S526x512.rank) = 0 from rfl)]
      show (r + sh) % 526 = (r % 526 + 526 - n.toNat % 526) % 526
      omega
    | ⟨1, _⟩ => by rw [if_neg (fun e => Nat.one_ne_zero (congrArg Fin.val e))])

end Cert.KernelIdeal.Layout

end
-- ==== Proof.KernelPadCols.lean ====
/-
  COLUMNS REFLECTED. The fifteen-piece concatenation, along the columns, of the single columns 7, 6, …, 1 of a 512 × 512
  image `v`, then `v`, then its single columns 510, 509, …, 504, holds at `(r, s)` the entry `(r, refl s)` of `v`:
  position `s < 7` is held by piece `s`, the column `7 - s`; a position `7 ≤ s < 519` by the eighth piece, `v` itself, at
  column `s - 7`; position `s ≥ 519` by piece `s - 511`, the column `510 - (s - 519) = 1029 - s`.
-/
import proofs.«127667_j8375186227709_2_alg».proof.Proof.KernelLayout

noncomputable section

namespace Cert.KernelIdeal.Layout

open Idealize.ShloMosaic Idealize.ShloMosaic.ValueIdx Cert.KernelIdeal Cert.Dark

variable {α : Type}

/-- The padded columns of `v`, as the kernel lays them. -/
abbrev padCols (v : S512x512.Idx → α) (h7 : S512x512.Slices ![0, 7] S512x1) (h6 : S512x512.Slices ![0, 6] S512x1) (h5 : S512x512.Slices ![0, 5] S512x1) (h4 : S512x512.Slices ![0, 4] S512x1) (h3 : S512x512.Slices ![0, 3] S512x1) (h2 : S512x512.Slices ![0, 2] S512x1) (h1 : S512x512.Slices ![0, 1] S512x1) (h510 : S512x512.Slices ![0, 510] S512x1) (h509 : S512x512.Slices ![0, 509] S512x1) (h508 : S512x512.Slices ![0, 508] S512x1) (h507 : S512x512.Slices ![0, 507] S512x1) (h506 : S512x512.Slices ![0, 506] S512x1) (h505 : S512x512.Slices ![0, 505] S512x1) (h504 : S512x512.Slices ![0, 504] S512x1)
    (hc : Shape.Concatenates colShapes S512x526 1) : S512x526.Idx → α :=
  concatenate S512x526 1 [⟨S512x1, extractStridedSlice S512x1 ![0, 7] v h7⟩, ⟨S512x1, extractStridedSlice S512x1 ![0, 6] v h6⟩, ⟨S512x1, extractStridedSlice S512x1 ![0, 5] v h5⟩, ⟨S512x1, extractStridedSlice S512x1 ![0, 4] v h4⟩, ⟨S512x1, extractStridedSlice S512x1 ![0, 3] v h3⟩, ⟨S512x1, extractStridedSlice S512x1 ![0, 2] v h2⟩, ⟨S512x1, extractStridedSlice S512x1 ![0, 1] v h1⟩, ⟨S512x512, v⟩, ⟨S512x1, extractStridedSlice S512x1 ![0, 510] v h510⟩, ⟨S512x1, extractStridedSlice S512x1 ![0, 509] v h509⟩, ⟨S512x1, extractStridedSlice S512x1 ![0, 508] v h508⟩, ⟨S512x1, extractStridedSlice S512x1 ![0, 507] v h507⟩, ⟨S512x1, extractStridedSlice S512x1 ![0, 506] v h506⟩, ⟨S512x1, extractStridedSlice S512x1 ![0, 505] v h505⟩, ⟨S512x1, extractStridedSlice S512x1 ![0, 504] v h504⟩] hc

/-- The seven columns on the left. -/
theorem padCols_left (v : S512x512.Idx → α) (h7 : S512x512.Slices ![0, 7] S512x1) (h6 : S512x512.Slices ![0, 6] S512x1) (h5 : S512x512.Slices ![0, 5] S512x1) (h4 : S512x512.Slices ![0, 4] S512x1) (h3 : S512x512.Slices ![0, 3] S512x1) (h2 : S512x512.Slices ![0, 2] S512x1) (h1 : S512x512.Slices ![0, 1] S512x1) (h510 : S512x512.Slices ![0, 510] S512x1) (h509 : S512x512.Slices ![0, 509] S512x1) (h508 : S512x512.Slices ![0, 508] S512x1) (h507 : S512x512.Slices ![0, 507] S512x1) (h506 : S512x512.Slices ![0, 506] S512x1) (h505 : S512x512.Slices ![0, 505] S512x1) (h504 : S512x512.Slices ![0, 504] S512x1)
    (hc : Shape.Concatenates colShapes S512x526 1) (r : Fin 512) (sv : ℕ) (hs : sv < 526) (h : sv < 7) :
    padCols v h7 h6 h5 h4 h3 h2 h1 h510 h509 h508 h507 h506 h505 h504 hc (ix2 r ⟨sv, hs⟩) = v (ix2 r (reflF ⟨sv, hs⟩)) := by
  unfold padCols
  interval_cases sv
  · exact (catCols_one _ colShapes rfl _ r ⟨0, hs⟩ 0 (by decide) _ rfl (show ((colShapes.take 0).map (ext2 1)).sum = 0 by decide +kernel)).trans (col_apply v 7 h7 r _ rfl)
  · exact (catCols_one _ colShapes rfl _ r ⟨1, hs⟩ 1 (by decide) _ rfl (show ((colShapes.take 1).map (ext2 1)).sum = 1 by decide +kernel)).trans (col_apply v 6 h6 r _ rfl)
  · exact (catCols_one _ colShapes rfl _ r ⟨2, hs⟩ 2 (by decide) _ rfl (show ((colShapes.take 2).map (ext2 1)).sum = 2 by decide +kernel)).trans (col_apply v 5 h5 r _ rfl)
  · exact (catCols_one _ colShapes rfl _ r ⟨3, hs⟩ 3 (by decide) _ rfl (show ((colShapes.take 3).map (ext2 1)).sum = 3 by decide +kernel)).trans (col_apply v 4 h4 r _ rfl)
  · exact (catCols_one _ colShapes rfl _ r ⟨4, hs⟩ 4 (by decide) _ rfl (show ((colShapes.take 4).map (ext2 1)).sum = 4 by decide +kernel)).trans (col_apply v 3 h3 r _ rfl)
  · exact (catCols_one _ colShapes rfl _ r ⟨5, hs⟩ 5 (by decide) _ rfl (show ((colShapes.take 5).map (ext2 1)).sum = 5 by decide +kernel)).trans (col_apply v 2 h2 r _ rfl)
  · exact (catCols_one _ colShapes rfl _ r ⟨6, hs⟩ 6 (by decide) _ rfl (show ((colShapes.take 6).map (ext2 1)).sum = 6 by decide +kernel)).trans (col_apply v 1 h1 r _ rfl)

/-- The image itself in the middle. -/
theorem padCols_mid (v : S512x512.Idx → α) (h7 : S512x512.Slices ![0, 7] S512x1) (h6 : S512x512.Slices ![0, 6] S512x1) (h5 : S512x512.Slices ![0, 5] S512x1) (h4 : S512x512.Slices ![0, 4] S512x1) (h3 : S512x512.Slices ![0, 3] S512x1) (h2 : S512x512.Slices ![0, 2] S512x1) (h1 : S512x512.Slices ![0, 1] S512x1) (h510 : S512x512.Slices ![0, 510] S512x1) (h509 : S512x512.Slices ![0, 509] S512x1) (h508 : S512x512.Slices ![0, 508] S512x1) (h507 : S512x512.Slices ![0, 507] S512x1) (h506 : S512x512.Slices ![0, 506] S512x1) (h505 : S512x512.Slices ![0, 505] S512x1) (h504 : S512x512.Slices ![0, 504] S512x1)
    (hc : Shape.Concatenates colShapes S512x526 1) (r : Fin 512) (sv : ℕ) (hs : sv < 526) (h : 7 ≤ sv) (h' : sv < 519) :
    padCols v h7 h6 h5 h4 h3 h2 h1 h510 h509 h508 h507 h506 h505 h504 hc (ix2 r ⟨sv, hs⟩) = v (ix2 r (reflF ⟨sv, hs⟩)) :=
  (catCols_mid _ colShapes rfl _ r ⟨sv, hs⟩ 7 (by decide) _ rfl 7 (by decide +kernel) ⟨sv - 7, by omega⟩
      (by show 7 + (sv - 7) = sv; omega)).trans
    (congrArg v (congrArg (ix2 r) (Fin.ext (by show sv - 7 = refl sv; rw [refl_of_mid h h']))))

/-- The seven columns on the right. -/
theorem padCols_right (v : S512x512.Idx → α) (h7 : S512x512.Slices ![0, 7] S512x1) (h6 : S512x512.Slices ![0, 6] S512x1) (h5 : S512x512.Slices ![0, 5] S512x1) (h4 : S512x512.Slices ![0, 4] S512x1) (h3 : S512x512.Slices ![0, 3] S512x1) (h2 : S512x512.Slices ![0, 2] S512x1) (h1 : S512x512.Slices ![0, 1] S512x1) (h510 : S512x512.Slices ![0, 510] S512x1) (h509 : S512x512.Slices ![0, 509] S512x1) (h508 : S512x512.Slices ![0, 508] S512x1) (h507 : S512x512.Slices ![0, 507] S512x1) (h506 : S512x512.Slices ![0, 506] S512x1) (h505 : S512x512.Slices ![0, 505] S512x1) (h504 : S512x512.Slices ![0, 504] S512x1)
    (hc : Shape.Concatenates colShapes S512x526 1) (r : Fin 512) (sv : ℕ) (hs : sv < 526) (h : 519 ≤ sv) :
    padCols v h7 h6 h5 h4 h3 h2 h1 h510 h509 h508 h507 h506 h505 h504 hc (ix2 r ⟨sv, hs⟩) = v (ix2 r (reflF ⟨sv, hs⟩)) := by
  unfold padCols
  interval_cases sv
  · exact (catCols_one _ colShapes rfl _ r ⟨519, hs⟩ 8 (by decide) _ rfl (show ((colShapes.take 8).map (ext2 1)).sum = 519 by decide +kernel)).trans (col_apply v 510 h510 r _ rfl)
  · exact (catCols_one _ colShapes rfl _ r ⟨520, hs⟩ 9 (by decide) _ rfl (show ((colShapes.take 9).map (ext2 1)).sum = 520 by decide +kernel)).trans (col_apply v 509 h509 r _ rfl)
  · exact (catCols_one _ colShapes rfl _ r ⟨521, hs⟩ 10 (by decide) _ rfl (show ((colShapes.take 10).map (ext2 1)).sum = 521 by decide +kernel)).trans (col_apply v 508 h508 r _ rfl)
  · exact (catCols_one _ colShapes rfl _ r ⟨522, hs⟩ 11 (by decide) _ rfl (show ((colShapes.take 11).map (ext2 1)).sum = 522 by decide +kernel)).trans (col_apply v 507 h507 r _ rfl)
  · exact (catCols_one _ colShapes rfl _ r ⟨523, hs⟩ 12 (by decide) _ rfl (show ((colShapes.take 12).map (ext2 1)).sum = 523 by decide +kernel)).trans (col_apply v 506 h506 r _ rfl)
  · exact (catCols_one _ colShapes rfl _ r ⟨524, hs⟩ 13 (by decide) _ rfl (show ((colShapes.take 13).map (ext2 1)).sum = 524 by decide +kernel)).trans (col_apply v 505 h505 r _ rfl)
  · exact (catCols_one _ colShapes rfl _ r ⟨525, hs⟩ 14 (by decide) _ rfl (show ((colShapes.take 14).map (ext2 1)).sum = 525 by decide +kernel)).trans (col_apply v 504 h504 r _ rfl)

/-- At every position: the entry `(r, refl s)` of `v`. -/
theorem padCols_apply (v : S512x512.Idx → α) (h7 : S512x512.Slices ![0, 7] S512x1) (h6 : S512x512.Slices ![0, 6] S512x1) (h5 : S512x512.Slices ![0, 5] S512x1) (h4 : S512x512.Slices ![0, 4] S512x1) (h3 : S512x512.Slices ![0, 3] S512x1) (h2 : S512x512.Slices ![0, 2] S512x1) (h1 : S512x512.Slices ![0, 1] S512x1) (h510 : S512x512.Slices ![0, 510] S512x1) (h509 : S512x512.Slices ![0, 509] S512x1) (h508 : S512x512.Slices ![0, 508] S512x1) (h507 : S512x512.Slices ![0, 507] S512x1) (h506 : S512x512.Slices ![0, 506] S512x1) (h505 : S512x512.Slices ![0, 505] S512x1) (h504 : S512x512.Slices ![0, 504] S512x1)
    (hc : Shape.Concatenates colShapes S512x526 1) (r : Fin 512) (s : Fin 526) :
    padCols v h7 h6 h5 h4 h3 h2 h1 h510 h509 h508 h507 h506 h505 h504 hc (ix2 r s) = v (ix2 r (reflF s)) := by
  obtain ⟨sv, hs⟩ := s
  rcases Nat.lt_or_ge sv 7 with h | h
  · exact padCols_left v h7 h6 h5 h4 h3 h2 h1 h510 h509 h508 h507 h506 h505 h504 hc r sv hs h
  · rcases Nat.lt_or_ge sv 519 with h' | h'
    · exact padCols_mid v h7 h6 h5 h4 h3 h2 h1 h510 h509 h508 h507 h506 h505 h504 hc r sv hs h h'
    · exact padCols_right v h7 h6 h5 h4 h3 h2 h1 h510 h509 h508 h507 h506 h505 h504 hc r sv hs h'

end Cert.KernelIdeal.Layout

end
-- ==== Proof.KernelPadRows.lean ====
/-
  ROWS REFLECTED. The fifteen-piece concatenation, along the rows, of the single rows 7, 6, …, 1 of a 512 × 526 array `w`,
  then `w`, then its single rows 510, 509, …, 504, holds at `(r, s)` the entry `(refl r, s)` of `w`: row `r < 7` is piece
  `r`, the row `7 - r`; a row `7 ≤ r < 519` is in the eighth piece, `w` itself, at row `r - 7`; row `r ≥ 519` is piece
  `r - 511`, the row `510 - (r - 519) = 1029 - r`.
-/
import proofs.«127667_j8375186227709_2_alg».proof.Proof.KernelLayout

noncomputable section

namespace Cert.KernelIdeal.Layout

open Idealize.ShloMosaic Idealize.ShloMosaic.ValueIdx Cert.KernelIdeal Cert.Dark

variable {α : Type}

/-- The padded rows of `w`, as the kernel lays them. -/
abbrev padRows (w : S512x526.Idx → α) (g7 : S512x526.Slices ![7, 0] S1x526) (g6 : S512x526.Slices ![6, 0] S1x526) (g5 : S512x526.Slices ![5, 0] S1x526) (g4 : S512x526.Slices ![4, 0] S1x526) (g3 : S512x526.Slices ![3, 0] S1x526) (g2 : S512x526.Slices ![2, 0] S1x526) (g1 : S512x526.Slices ![1, 0] S1x526) (g510 : S512x526.Slices ![510, 0] S1x526) (g509 : S512x526.Slices ![509, 0] S1x526) (g508 : S512x526.Slices ![508, 0] S1x526) (g507 : S512x526.Slices ![507, 0] S1x526) (g506 : S512x526.Slices ![506, 0] S1x526) (g505 : S512x526.Slices ![505, 0] S1x526) (g504 : S512x526.Slices ![504, 0] S1x526)
    (hc : Shape.Concatenates rowShapes S526x526 0) : S526x526.Idx → α :=
  concatenate S526x526 0 [⟨S1x526, extractStridedSlice S1x526 ![7, 0] w g7⟩, ⟨S1x526, extractStridedSlice S1x526 ![6, 0] w g6⟩, ⟨S1x526, extractStridedSlice S1x526 ![5, 0] w g5⟩, ⟨S1x526, extractStridedSlice S1x526 ![4, 0] w g4⟩, ⟨S1x526, extractStridedSlice S1x526 ![3, 0] w g3⟩, ⟨S1x526, extractStridedSlice S1x526 ![2, 0] w g2⟩, ⟨S1x526, extractStridedSlice S1x526 ![1, 0] w g1⟩, ⟨S512x526, w⟩, ⟨S1x526, extractStridedSlice S1x526 ![510, 0] w g510⟩, ⟨S1x526, extractStridedSlice S1x526 ![509, 0] w g509⟩, ⟨S1x526, extractStridedSlice S1x526 ![508, 0] w g508⟩, ⟨S1x526, extractStridedSlice S1x526 ![507, 0] w g507⟩, ⟨S1x526, extractStridedSlice S1x526 ![506, 0] w g506⟩, ⟨S1x526, extractStridedSlice S1x526 ![505, 0] w g505⟩, ⟨S1x526, extractStridedSlice S1x526 ![504, 0] w g504⟩] hc

/-- The seven rows on top. -/
theorem padRows_top (w : S512x526.Idx → α) (g7 : S512x526.Slices ![7, 0] S1x526) (g6 : S512x526.Slices ![6, 0] S1x526) (g5 : S512x526.Slices ![5, 0] S1x526) (g4 : S512x526.Slices ![4, 0] S1x526) (g3 : S512x526.Slices ![3, 0] S1x526) (g2 : S512x526.Slices ![2, 0] S1x526) (g1 : S512x526.Slices ![1, 0] S1x526) (g510 : S512x526.Slices ![510, 0] S1x526) (g509 : S512x526.Slices ![509, 0] S1x526) (g508 : S512x526.Slices ![508, 0] S1x526) (g507 : S512x526.Slices ![507, 0] S1x526) (g506 : S512x526.Slices ![506, 0] S1x526) (g505 : S512x526.Slices ![505, 0] S1x526) (g504 : S512x526.Slices ![504, 0] S1x526)
    (hc : Shape.Concatenates rowShapes S526x526 0) (s : Fin 526) (rv : ℕ) (hr : rv < 526) (h : rv < 7) :
    padRows w g7 g6 g5 g4 g3 g2 g1 g510 g509 g508 g507 g506 g505 g504 hc (ix2 ⟨rv, hr⟩ s) = w (ix2 (reflF ⟨rv, hr⟩) s) := by
  unfold padRows
  interval_cases rv
  · exact (catRows_one _ rowShapes rfl _ ⟨0, hr⟩ s 0 (by decide) _ rfl (show ((rowShapes.take 0).map (ext2 0)).sum = 0 by decide +kernel)).trans (row_apply w 7 g7 s _ rfl)
  · exact (catRows_one _ rowShapes rfl _ ⟨1, hr⟩ s 1 (by decide) _ rfl (show ((rowShapes.take 1).map (ext2 0)).sum = 1 by decide +kernel)).trans (row_apply w 6 g6 s _ rfl)
  · exact (catRows_one _ rowShapes rfl _ ⟨2, hr⟩ s 2 (by decide) _ rfl (show ((rowShapes.take 2).map (ext2 0)).sum = 2 by decide +kernel)).trans (row_apply w 5 g5 s _ rfl)
  · exact (catRows_one _ rowShapes rfl _ ⟨3, hr⟩ s 3 (by decide) _ rfl (show ((rowShapes.take 3).map (ext2 0)).sum = 3 by decide +kernel)).trans (row_apply w 4 g4 s _ rfl)
  · exact (catRows_one _ rowShapes rfl _ ⟨4, hr⟩ s 4 (by decide) _ rfl (show ((rowShapes.take 4).map (ext2 0)).sum = 4 by decide +kernel)).trans (row_apply w 3 g3 s _ rfl)
  · exact (catRows_one _ rowShapes rfl _ ⟨5, hr⟩ s 5 (by decide) _ rfl (show ((rowShapes.take 5).map (ext2 0)).sum = 5 by decide +kernel)).trans (row_apply w 2 g2 s _ rfl)
  · exact (catRows_one _ rowShapes rfl _ ⟨6, hr⟩ s 6 (by decide) _ rfl (show ((rowShapes.take 6).map (ext2 0)).sum = 6 by decide +kernel)).trans (row_apply w 1 g1 s _ rfl)

/-- The array itself in the middle. -/
theorem padRows_mid (w : S512x526.Idx → α) (g7 : S512x526.Slices ![7, 0] S1x526) (g6 : S512x526.Slices ![6, 0] S1x526) (g5 : S512x526.Slices ![5, 0] S1x526) (g4 : S512x526.Slices ![4, 0] S1x526) (g3 : S512x526.Slices ![3, 0] S1x526) (g2 : S512x526.Slices ![2, 0] S1x526) (g1 : S512x526.Slices ![1, 0] S1x526) (g510 : S512x526.Slices ![510, 0] S1x526) (g509 : S512x526.Slices ![509, 0] S1x526) (g508 : S512x526.Slices ![508, 0] S1x526) (g507 : S512x526.Slices ![507, 0] S1x526) (g506 : S512x526.Slices ![506, 0] S1x526) (g505 : S512x526.Slices ![505, 0] S1x526) (g504 : S512x526.Slices ![504, 0] S1x526)
    (hc : Shape.Concatenates rowShapes S526x526 0) (s : Fin 526) (rv : ℕ) (hr : rv < 526) (h : 7 ≤ rv) (h' : rv < 519) :
    padRows w g7 g6 g5 g4 g3 g2 g1 g510 g509 g508 g507 g506 g505 g504 hc (ix2 ⟨rv, hr⟩ s) = w (ix2 (reflF ⟨rv, hr⟩) s) :=
  (catRows_mid _ rowShapes rfl _ ⟨rv, hr⟩ s 7 (by decide) _ rfl 7 (by decide +kernel) ⟨rv - 7, by omega⟩
      (by show 7 + (rv - 7) = rv; omega)).trans
    (congrArg w (congrArg (fun a => ix2 a s) (Fin.ext (by show rv - 7 = refl rv; rw [refl_of_mid h h']))))

/-- The seven rows at the bottom. -/
theorem padRows_bottom (w : S512x526.Idx → α) (g7 : S512x526.Slices ![7, 0] S1x526) (g6 : S512x526.Slices ![6, 0] S1x526) (g5 : S512x526.Slices ![5, 0] S1x526) (g4 : S512x526.Slices ![4, 0] S1x526) (g3 : S512x526.Slices ![3, 0] S1x526) (g2 : S512x526.Slices ![2, 0] S1x526) (g1 : S512x526.Slices ![1, 0] S1x526) (g510 : S512x526.Slices ![510, 0] S1x526) (g509 : S512x526.Slices ![509, 0] S1x526) (g508 : S512x526.Slices ![508, 0] S1x526) (g507 : S512x526.Slices ![507, 0] S1x526) (g506 : S512x526.Slices ![506, 0] S1x526) (g505 : S512x526.Slices ![505, 0] S1x526) (g504 : S512x526.Slices ![504, 0] S1x526)
    (hc : Shape.Concatenates rowShapes S526x526 0) (s : Fin 526) (rv : ℕ) (hr : rv < 526) (h : 519 ≤ rv) :
    padRows w g7 g6 g5 g4 g3 g2 g1 g510 g509 g508 g507 g506 g505 g504 hc (ix2 ⟨rv, hr⟩ s) = w (ix2 (reflF ⟨rv, hr⟩) s) := by
  unfold padRows
  interval_cases rv
  · exact (catRows_one _ rowShapes rfl _ ⟨519, hr⟩ s 8 (by decide) _ rfl (show ((rowShapes.take 8).map (ext2 0)).sum = 519 by decide +kernel)).trans (row_apply w 510 g510 s _ rfl)
  · exact (catRows_one _ rowShapes rfl _ ⟨520, hr⟩ s 9 (by decide) _ rfl (show ((rowShapes.take 9).map (ext2 0)).sum = 520 by decide +kernel)).trans (row_apply w 509 g509 s _ rfl)
  · exact (catRows_one _ rowShapes rfl _ ⟨521, hr⟩ s 10 (by decide) _ rfl (show ((rowShapes.take 10).map (ext2 0)).sum = 521 by decide +kernel)).trans (row_apply w 508 g508 s _ rfl)
  · exact (catRows_one _ rowShapes rfl _ ⟨522, hr⟩ s 11 (by decide) _ rfl (show ((rowShapes.take 11).map (ext2 0)).sum = 522 by decide +kernel)).trans (row_apply w 507 g507 s _ rfl)
  · exact (catRows_one _ rowShapes rfl _ ⟨523, hr⟩ s 12 (by decide) _ rfl (show ((rowShapes.take 12).map (ext2 0)).sum = 523 by decide +kernel)).trans (row_apply w 506 g506 s _ rfl)
  · exact (catRows_one _ rowShapes rfl _ ⟨524, hr⟩ s 13 (by decide) _ rfl (show ((rowShapes.take 13).map (ext2 0)).sum = 524 by decide +kernel)).trans (row_apply w 505 g505 s _ rfl)
  · exact (catRows_one _ rowShapes rfl _ ⟨525, hr⟩ s 14 (by decide) _ rfl (show ((rowShapes.take 14).map (ext2 0)).sum = 525 by decide +kernel)).trans (row_apply w 504 g504 s _ rfl)

/-- At every position: the entry `(refl r, s)` of `w`. -/
theorem padRows_apply (w : S512x526.Idx → α) (g7 : S512x526.Slices ![7, 0] S1x526) (g6 : S512x526.Slices ![6, 0] S1x526) (g5 : S512x526.Slices ![5, 0] S1x526) (g4 : S512x526.Slices ![4, 0] S1x526) (g3 : S512x526.Slices ![3, 0] S1x526) (g2 : S512x526.Slices ![2, 0] S1x526) (g1 : S512x526.Slices ![1, 0] S1x526) (g510 : S512x526.Slices ![510, 0] S1x526) (g509 : S512x526.Slices ![509, 0] S1x526) (g508 : S512x526.Slices ![508, 0] S1x526) (g507 : S512x526.Slices ![507, 0] S1x526) (g506 : S512x526.Slices ![506, 0] S1x526) (g505 : S512x526.Slices ![505, 0] S1x526) (g504 : S512x526.Slices ![504, 0] S1x526)
    (hc : Shape.Concatenates rowShapes S526x526 0) (r : Fin 526) (s : Fin 526) :
    padRows w g7 g6 g5 g4 g3 g2 g1 g510 g509 g508 g507 g506 g505 g504 hc (ix2 r s) = w (ix2 (reflF r) s) := by
  obtain ⟨rv, hr⟩ := r
  rcases Nat.lt_or_ge rv 7 with h | h
  · exact padRows_top w g7 g6 g5 g4 g3 g2 g1 g510 g509 g508 g507 g506 g505 g504 hc s rv hr h
  · rcases Nat.lt_or_ge rv 519 with h' | h'
    · exact padRows_mid w g7 g6 g5 g4 g3 g2 g1 g510 g509 g508 g507 g506 g505 g504 hc s rv hr h h'
    · exact padRows_bottom w g7 g6 g5 g4 g3 g2 g1 g510 g509 g508 g507 g506 g505 g504 hc s rv hr h'

end Cert.KernelIdeal.Layout

end
-- ==== Proof.KernelStages.lean ====
/-
  The kernel body's computation, stage by stage.

  The body takes one image's block `x0 : [1, 3, 512, 512]` and computes, in order: the minimum over the three channels
  (a lane-wise reduction from +∞); the reflection of its columns, then of its rows, to 526 × 526; four rotate-and-minimum
  steps along the columns with shifts 1, 2, 4, 7, keeping the first 512 columns; the same four steps along the rows,
  keeping the first 512 rows. This module names the stages and shows that the stored value is their composition.
-/
import proofs.«127667_j8375186227709_2_alg».proof.Proof.Gen.KernelIdeal.Skeleton
import proofs.«127667_j8375186227709_2_alg».proof.Proof.KernelPadCols
import proofs.«127667_j8375186227709_2_alg».proof.Proof.KernelPadRows

noncomputable section

namespace Cert.KernelIdeal.Payload

open Idealize.ShloMosaic Idealize.ShloMosaic.ValueIdx Cert.KernelIdeal Cert.KernelIdeal.Gen Cert.KernelIdeal.Layout Cert.Dark

/-! ## The body's stages -/

/-- The minimum over the three channels, from +∞. -/
def chanMin (x0 : Vec Ideal S1x3x512x512 .f32) : FVec Ideal S512x512 .f32 :=
  multiReduction .minimumf [0] S512x512 (shapeCast S3x512x512 x0 Facts₀.shapeCasts_S1x3x512x512_S3x512x512) 0x7F800000#32
    Facts₀.reduces_S3x512x512_S512x512 (.inl rfl) rfl

/-- One rotate-and-minimum step along the columns. -/
def stepC (n : BitVec 32) (u : FVec Ideal S526x526 .f32) : FVec Ideal S526x526 .f32 :=
  minimumf u (dynamicRotate 1 n none u Facts₀.rotates_S526x526_d1)

/-- The four steps along the columns: shifts 1, 2, 4, 7. -/
def winC (u : FVec Ideal S526x526 .f32) : FVec Ideal S526x526 .f32 :=
  stepC 519#32 (stepC 522#32 (stepC 524#32 (stepC 525#32 u)))

/-- One rotate-and-minimum step along the rows. -/
def stepR (n : BitVec 32) (u : FVec Ideal S526x512 .f32) : FVec Ideal S526x512 .f32 :=
  minimumf u (dynamicRotate 0 n none u Facts₀.rotates_S526x512_d0)

/-- The four steps along the rows: shifts 1, 2, 4, 7. -/
def winR (u : FVec Ideal S526x512 .f32) : FVec Ideal S526x512 .f32 :=
  stepR 519#32 (stepR 522#32 (stepR 524#32 (stepR 525#32 u)))

/-- The reflected image: columns, then rows. -/
def padded (x0 : Vec Ideal S1x3x512x512 .f32) : FVec Ideal S526x526 .f32 :=
  padRows (padCols (chanMin x0) Facts₀.slices_S512x512_o0_7_S512x1 Facts₀.slices_S512x512_o0_6_S512x1 Facts₀.slices_S512x512_o0_5_S512x1 Facts₀.slices_S512x512_o0_4_S512x1 Facts₀.slices_S512x512_o0_3_S512x1 Facts₀.slices_S512x512_o0_2_S512x1 Facts₀.slices_S512x512_o0_1_S512x1 Facts₀.slices_S512x512_o0_510_S512x1 Facts₀.slices_S512x512_o0_509_S512x1 Facts₀.slices_S512x512_o0_508_S512x1 Facts₀.slices_S512x512_o0_507_S512x1 Facts₀.slices_S512x512_o0_506_S512x1 Facts₀.slices_S512x512_o0_505_S512x1 Facts₀.slices_S512x512_o0_504_S512x1 Facts₀.concatenates_S512x1_S512x1_S512x1_S512x1_S512x1_S512x1_S512x1_S512x512_S512x1_S512x1_S512x1_S512x1_S512x1_S512x1_S512x1_S512x526_d1)
    Facts₀.slices_S512x526_o7_0_S1x526 Facts₀.slices_S512x526_o6_0_S1x526 Facts₀.slices_S512x526_o5_0_S1x526 Facts₀.slices_S512x526_o4_0_S1x526 Facts₀.slices_S512x526_o3_0_S1x526 Facts₀.slices_S512x526_o2_0_S1x526 Facts₀.slices_S512x526_o1_0_S1x526 Facts₀.slices_S512x526_o510_0_S1x526 Facts₀.slices_S512x526_o509_0_S1x526 Facts₀.slices_S512x526_o508_0_S1x526 Facts₀.slices_S512x526_o507_0_S1x526 Facts₀.slices_S512x526_o506_0_S1x526 Facts₀.slices_S512x526_o505_0_S1x526 Facts₀.slices_S512x526_o504_0_S1x526 Facts₀.concatenates_S1x526_S1x526_S1x526_S1x526_S1x526_S1x526_S1x526_S512x526_S1x526_S1x526_S1x526_S1x526_S1x526_S1x526_S1x526_S526x526_d0

/-- The body's stored value is those stages in order. -/
theorem pay_eq (x0 : Vec Ideal S1x3x512x512 .f32) :
    k0_pay1 (k0_pay2 x0) (k0_pay3 x0)
      = shapeCast S1x1x512x512 (extractStridedSlice S512x512 ![0, 0]
          (winR (extractStridedSlice S526x512 ![0, 0] (winC (padded x0)) Facts₀.slices_S526x526_o0_0_S526x512))
          Facts₀.slices_S526x512_o0_0_S512x512) Facts₀.shapeCasts_S512x512_S1x1x512x512 := rfl

end Cert.KernelIdeal.Payload

end
-- ==== Proof.KernelChanMin.lean ====
/-
  The minimum over the three channels, read by its lower bounds.

  A lane-wise minimum reduction over the leading axis of `[3, 512, 512]`, from +∞, is at each pixel the fold of `min` over
  the three channel entries of that pixel, in any order; its lower bounds are the lower bounds of +∞ (everything) and
  of each of the three entries.
-/
import proofs.«127667_j8375186227709_2_alg».proof.Proof.KernelStages
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen Cert.KernelIdeal.Layout Cert.Dark

/-! ## The channel minimum, by its lower bounds -/

/-- Over result pixel `(a, b)` the reduced axis's coordinate `k` sits in front: the source index `(k, a, b)`. -/
theorem lift_eq (a b : Fin 512) (k : Fin 3) :
    Facts₀.reduces_S3x512x512_S512x512.lift (ix2 a b) k = ix3 k a b := by
  funext c
  match c with
  | ⟨0, _⟩ => rfl
  | ⟨1, _⟩ => rfl
  | ⟨2, _⟩ => rfl

/-- The block with its leading unit axis dropped, at `(k, a, b)`, is the block at `(0, k, a, b)`. -/
theorem dropUnit_apply (x0 : Vec Ideal S1x3x512x512 .f32) (k : Fin 3) (a b : Fin 512) :
    shapeCast S3x512x512 x0 Facts₀.shapeCasts_S1x3x512x512_S3x512x512 (ix3 k a b) = x0 (ix4 (0 : Fin 1) k a b) :=
  shapeCast_apply _ _ _ _ (by
    rw [Shape.rowMajor_val_three, Shape.rowMajor_val_four]
    show ((0 * 3 + k.val) * 512 + a.val) * 512 + b.val = (k.val * 512 + a.val) * 512 + b.val
    omega)

/-- The lower bounds of the channel minimum at `(a, b)` are the common lower bounds of the three channels there. -/
theorem le_chanMin_iff (x0 : Vec Ideal S1x3x512x512 .f32) (a b : Fin 512) (z : EReal) :
    z ≤ chanMin x0 (ix2 a b) ↔ ∀ c : Fin 3, z ≤ x0 (ix4 (0 : Fin 1) c a b) := by
  have e : chanMin x0 (ix2 a b)
      = (Finset.univ : Finset (Fin 3)).fold min (Ideal.ofBits .f32 0x7F800000#32) (fun k => x0 (ix4 (0 : Fin 1) k a b)) := by
    unfold chanMin
    refine (multiReduction_minimumf_eq_fold _ _ _ _ _ _).trans ?_
    refine (Facts₀.reduces_S3x512x512_S512x512.fold_filter_drop_single _ _ _ _).trans ?_
    refine congrArg (Finset.fold _ _ · _) (funext fun (k : Fin 3) => ?_)
    exact (congrArg (shapeCast S3x512x512 x0 Facts₀.shapeCasts_S1x3x512x512_S3x512x512) (lift_eq a b k)).trans
      (dropUnit_apply x0 k a b)
  rw [e, Finset.le_fold_min]
  have htop : Ideal.ofBits .f32 0x7F800000#32 = ⊤ := by simp [Ideal.ofBits, Ideal.ieee]
  rw [htop]
  exact ⟨fun h c => h.2 c (Finset.mem_univ _), fun h => ⟨le_top, fun c _ => h c⟩⟩

end Cert.KernelIdeal.Payload

end
-- ==== Proof.KernelWindow.lean ====
/-
  The two sliding-window passes, read by their lower bounds.

  One pass is four rotate-and-minimum steps with shifts 1, 2, 4, 7 along a 526-long axis. On the periodic continuation of
  a row (or column) each step is `s ↦ min (u s) (u (s + shift))`; shifts 1, 2, 4 build the minimum of 8 consecutive
  entries and the shift 7 joins two such runs into 15. So after a pass the lower bounds at position `s` are the common
  lower bounds of the fifteen entries from `s` on, cyclically.
-/
import proofs.«127667_j8375186227709_2_alg».proof.Proof.KernelStages

noncomputable section

namespace Cert.KernelIdeal.Payload

open Idealize.ShloMosaic Idealize.ShloMosaic.ValueIdx Cert.KernelIdeal Cert.KernelIdeal.Gen Cert.KernelIdeal.Layout Cert.Dark

/-! ## The two window passes, by their lower bounds -/

/-- One step along the columns is one doubling step of every row's periodic sequence. -/
theorem lineC_stepC (n : BitVec 32) (sh : ℕ) (hn : n.toNat % 526 + sh = 526) (u : FVec Ideal S526x526 .f32) (r : Fin 526) :
    lineC (stepC n u) r = dbl sh (lineC u r) := by
  funext s
  show min (lineC u r s) (lineC (dynamicRotate 1 n none u Facts₀.rotates_S526x526_d1) r s) = min (lineC u r s) (lineC u r (s + sh))
  rw [lineC_rot n sh hn]

/-- One step along the rows is one doubling step of every column's periodic sequence. -/
theorem lineR_stepR (n : BitVec 32) (sh : ℕ) (hn : n.toNat % 526 + sh = 526) (u : FVec Ideal S526x512 .f32) (s : Fin 512) :
    lineR (stepR n u) s = dbl sh (lineR u s) := by
  funext r
  show min (lineR u s r) (lineR (dynamicRotate 0 n none u Facts₀.rotates_S526x512_d0) s r) = min (lineR u s r) (lineR u s (r + sh))
  rw [lineR_rot n sh hn]

/-- After the four steps along the columns, the lower bounds at column `s` of a row are the common lower bounds of the
    fifteen entries of that row from `s` on (cyclically). -/
theorem le_winC_iff (u : FVec Ideal S526x526 .f32) (r : Fin 526) (s : ℕ) (z : EReal) :
    z ≤ winC u (ix2 r (pos526 s)) ↔ ∀ d, d < 15 → z ≤ u (ix2 r (pos526 (s + d))) := by
  show z ≤ lineC (winC u) r s ↔ ∀ d, d < 15 → z ≤ lineC u r (s + d)
  unfold winC
  rw [lineC_stepC 519#32 7 (by decide), lineC_stepC 522#32 4 (by decide), lineC_stepC 524#32 2 (by decide),
    lineC_stepC 525#32 1 (by decide)]
  exact le_window15_iff _ z s

/-- The same along the rows. -/
theorem le_winR_iff (u : FVec Ideal S526x512 .f32) (s : Fin 512) (r : ℕ) (z : EReal) :
    z ≤ winR u (ix2 (pos526 r) s) ↔ ∀ d, d < 15 → z ≤ u (ix2 (pos526 (r + d)) s) := by
  show z ≤ lineR (winR u) s r ↔ ∀ d, d < 15 → z ≤ lineR u s (r + d)
  unfold winR
  rw [lineR_stepR 519#32 7 (by decide), lineR_stepR 522#32 4 (by decide), lineR_stepR 524#32 2 (by decide),
    lineR_stepR 525#32 1 (by decide)]
  exact le_window15_iff _ z r

end Cert.KernelIdeal.Payload

end
-- ==== Proof.KernelPayload.lean ====
/-
  The value the kernel body stores, read at one pixel.

  Every minimum the body takes is read through its lower bounds (`z ≤ min a b ↔ z ≤ a ∧ z ≤ b`): the pass along the
  rows asks for the fifteen rows `p … p + 14`, the pass along the columns for the fifteen columns `q … q + 14`, the
  reflection sends each padded position to its image position, and the channel minimum asks for the three channels. The
  rotations are cyclic over 526 positions, but a kept pixel `p < 512` only ever looks at `p … p + 14 ≤ 525`: nothing wraps
  around into a kept entry. So the stored value at `(p, q)` has exactly the lower bounds of the dark channel's infimum.
-/
import proofs.«127667_j8375186227709_2_alg».proof.Proof.KernelChanMin
import proofs.«127667_j8375186227709_2_alg».proof.Proof.KernelWindow

noncomputable section

namespace Cert.KernelIdeal.Payload

open Idealize.ShloMosaic Idealize.ShloMosaic.ValueIdx Cert.KernelIdeal Cert.KernelIdeal.Gen Cert.KernelIdeal.Layout Cert.Dark

/-! ## The stored value at a pixel -/

/-- The reflected image at `(r, s)` is the channel minimum at `(refl r, refl s)`. -/
theorem padded_apply (x0 : Vec Ideal S1x3x512x512 .f32) (r s : Fin 526) :
    padded x0 (ix2 r s) = chanMin x0 (ix2 (reflF r) (reflF s)) := by
  unfold padded
  rw [padRows_apply, padCols_apply]

/-- A window position of a kept pixel is not wrapped: `p + d < 526`. -/
theorem pos526_wpos (p : Fin 512) (d : ℕ) (hd : d < 15) : pos526 (p.val + d) = wpos p ⟨d, hd⟩ :=
  Fin.ext (Nat.mod_eq_of_lt (by have := p.isLt; omega))

/-- THE BODY'S STORED VALUE at pixel `(p, q)` of its block is the dark channel of the loaded image there. -/
theorem pay_apply (x0 : Vec Ideal S1x3x512x512 .f32) (p q : Fin 512) :
    k0_pay1 (k0_pay2 x0) (k0_pay3 x0) (ix4 (0 : Fin 1) (0 : Fin 1) p q)
      = dark (fun c r s => x0 (ix4 (0 : Fin 1) c r s)) p q := by
  rw [pay_eq]
  -- the leading unit axes and the two crops
  have e1 : shapeCast S1x1x512x512 (extractStridedSlice S512x512 ![0, 0]
        (winR (extractStridedSlice S526x512 ![0, 0] (winC (padded x0)) Facts₀.slices_S526x526_o0_0_S526x512))
        Facts₀.slices_S526x512_o0_0_S512x512) Facts₀.shapeCasts_S512x512_S1x1x512x512 (ix4 (0 : Fin 1) (0 : Fin 1) p q)
      = winR (extractStridedSlice S526x512 ![0, 0] (winC (padded x0)) Facts₀.slices_S526x526_o0_0_S526x512)
          (ix2 (pos526 p.val) q) := by
    refine (shapeCast_apply _ _ _ (ix2 p q) (by
      rw [Shape.rowMajor_val_two, Shape.rowMajor_val_four]
      show p.val * 512 + q.val = ((0 * 1 + 0) * 512 + p.val) * 512 + q.val
      omega)).trans ?_
    refine extractStridedSlice_apply _ _ _ _ _ (fun a => match a with
      | ⟨0, _⟩ => by show p.val % 526 = 0 + p.val; have := p.isLt; omega
      | ⟨1, _⟩ => by show q.val = 0 + q.val; omega)
  have e2 : ∀ r : Fin 526, extractStridedSlice S526x512 ![0, 0] (winC (padded x0)) Facts₀.slices_S526x526_o0_0_S526x512 (ix2 r q)
      = winC (padded x0) (ix2 r (pos526 q.val)) := fun r =>
    extractStridedSlice_apply _ _ _ _ _ (fun a => match a with
      | ⟨0, _⟩ => by show r.val = 0 + r.val; omega
      | ⟨1, _⟩ => by show q.val % 526 = 0 + q.val; have := q.isLt; omega)
  rw [e1]
  refine eq_of_le_iff fun z => ?_
  rw [le_dark_iff, le_winR_iff]
  constructor
  · intro h di dj c
    have h1 := h di.val di.isLt
    rw [e2, le_winC_iff] at h1
    have h2 := h1 dj.val dj.isLt
    rw [padded_apply, le_chanMin_iff, pos526_wpos p di.val di.isLt, pos526_wpos q dj.val dj.isLt] at h2
    exact h2 c
  · intro h d hd
    rw [e2, le_winC_iff]
    intro e he
    rw [padded_apply, le_chanMin_iff, pos526_wpos p d hd, pos526_wpos q e he]
    exact fun c => h ⟨d, hd⟩ ⟨e, he⟩ c

end Cert.KernelIdeal.Payload

end
-- ==== Proof.KernelValue.lean ====
/-
  The kernel's result array, as one function of its argument.

  The kernel runs once per image of the batch: grid point `t` (of 16) loads block `t` of the argument — the image
  `[t, :, :, :]` — and writes back block `t` of the result — `[t, 0, :, :]`. What it writes is the dark channel of the
  image it loaded (the stored value read at a pixel), that is block `t` of the batch's dark channel `G`; the sixteen
  blocks tile the result array (index `i` lies in the block of point `i 0`), so the array ends holding `G` of the
  argument everywhere.
-/
import proofs.«127667_j8375186227709_2_alg».proof.Proof.Gen.KernelIdeal.Value
import proofs.«127667_j8375186227709_2_alg».proof.Proof.KernelPayload
import Idealize.ShloMosaic.Lib.Pipeline.Value

noncomputable section

open Idealize.ShloMosaic Idealize.ShloMosaic.TcCoe Idealize.SL.Sem
open Idealize.ShloMosaic.Pipeline (Dat)

namespace Cert.KernelIdeal.DarkValue

open Cert.KernelIdeal Cert.KernelIdeal.Gen Cert.KernelIdeal.Value Cert.KernelIdeal.Payload Cert.Dark
open Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The grid has sixteen points. -/
theorem hN : cfg0.N = 16 := N_0

/-- The printed index maps, decided over the grid: point `t` takes block `(t, 0, 0, 0)` of the argument and of the result. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The stored value of a block that is image `b` of a batch `X`, at any index of the block, is the batch's dark channel
    at that pixel of image `b`. -/
theorem block_value (x0 : Vec Ideal S1x3x512x512 .f32) (X : (⟨4, ![16, 3, 512, 512]⟩ : Shape).Idx → EReal) (b : Fin 16)
    (hx : ∀ (c : Fin 3) (r s : Fin 512), x0 (ix4 (0 : Fin 1) c r s) = X (ix4 b c r s)) (u0 u1 : Fin 1) (p q : Fin 512) :
    k0_pay1 (k0_pay2 x0) (k0_pay3 x0) (ix4 u0 u1 p q) = G X (ix4 b u1 p q) := by
  obtain rfl : u0 = 0 := Subsingleton.elim _ _
  obtain rfl : u1 = 0 := Subsingleton.elim _ _
  rw [pay_apply, G_apply]
  exact congrArg (fun x => dark x p q) (funext fun c => funext fun r => funext fun s => hx c r s)

/-- The input block at point `t` is image `t` of the argument. -/
theorem iblk_apply (c : Dev nD) (t : Fin cfg0.N) (ch : Fin 3) (r s : Fin 512) :
    (iblk m c 0 t : Vec Ideal S1x3x512x512 .f32) (ix4 (0 : Fin 1) ch r s)
      = (V m c main_arg0 : S16x3x512x512.Idx → EReal) (ix4 (⟨t.val, lt_of_lt_of_eq t.isLt hN⟩ : Fin 16) ch r s) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t 0 * 1 + 1 * 0 = t.val; rw [e0]; omega
  | ⟨1, _⟩ => show win0_0.index t 1 * 3 + 1 * ch.val = ch.val; rw [e1]; omega
  | ⟨2, _⟩ => show win0_0.index t 2 * 512 + 1 * r.val = r.val; rw [e2]; omega
  | ⟨3, _⟩ => show win0_0.index t 3 * 512 + 1 * s.val = s.val; rw [e3]; omega

/-- WHAT POINT `t` WRITES BACK is block `t` of the dark channel of the argument as the region finds it. -/
theorem flushed_eq (c : Dev nD) (t : Fin cfg0.N) :
    (dats m 0 c).flushed 1 t = ((cfg0.win 1).blk t).view.read (Elt Ideal) (G (V m c main_arg0)) := by
  rw [flushed1]
  unfold out0_1
  rw [View.canon_unit_zero hz4]
  simp only [View.ld_unit_zero (S := S1x3x512x512) hz4]
  obtain ⟨-, -, -, -, e0, e1, e2, e3⟩ := idx_facts t
  funext j
  obtain ⟨u0, u1, p, q, rfl⟩ : ∃ (u0 u1 : Fin 1) (p q : Fin 512), j = ix4 u0 u1 p q := ⟨j 0, j 1, j 2, j 3, eq_ix4 j⟩
  show k0_pay1 (k0_pay2 (iblk m c 0 t)) (k0_pay3 (iblk m c 0 t)) (ix4 u0 u1 p q)
    = G (V m c main_arg0) (((cfg0.win 1).blk t).view.emb (ix4 u0 u1 p q))
  refine (block_value (iblk m c 0 t) (V m c main_arg0) ⟨t.val, lt_of_lt_of_eq t.isLt hN⟩
    (fun ch r s => iblk_apply m c t ch r s) u0 u1 p q).trans ?_
  refine congrArg (G (V m c main_arg0)) (funext fun a => Fin.ext ?_)
  have hu0 : u0.val = 0 := by have := u0.isLt; omega
  have hu1 : u1.val = 0 := by have := u1.isLt; omega
  match a with
  | ⟨0, _⟩ => show t.val = win0_1.index t 0 * 1 + 1 * u0.val; rw [e0]; omega
  | ⟨1, _⟩ => show u1.val = win0_1.index t 1 * 1 + 1 * u1.val; rw [e1]; omega
  | ⟨2, _⟩ => show p.val = win0_1.index t 2 * 512 + 1 * p.val; rw [e2]; omega
  | ⟨3, _⟩ => show q.val = win0_1.index t 3 * 512 + 1 * q.val; rw [e3]; omega

/-- An index of the result array is in point `t`'s block iff each coordinate is in the block's range on its axis. -/
theorem mem_blk (t : Fin cfg0.N) (i : S16x1x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v0).slice (win0_1.rect t)).set ↔ _
  rw [View.set_slice_whole, Rect.mem_set_unit]
  exact Iff.rfl

/-- Every index of the result array lies in the block of the point that is its image number. -/
theorem cover (i : S16x1x512x512.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 512 := (i 2).isLt
  have h3 : (i 3).val < 512 := (i 3).isLt
  obtain ⟨t, ht⟩ : ∃ t : Fin cfg0.N, t.val = (i 0).val := ⟨⟨(i 0).val, lt_of_lt_of_eq h0 hN.symm⟩, rfl⟩
  obtain ⟨-, -, -, -, e0, e1, e2, e3⟩ := idx_facts t
  refine ⟨t, flush0_1 t, ?_⟩
  rw [mem_blk]
  intro a
  match a with
  | ⟨0, _⟩ => show win0_1.index t 0 * 1 ≤ (i 0).val ∧ (i 0).val < win0_1.index t 0 * 1 + 1; rw [e0]; omega
  | ⟨1, _⟩ => show win0_1.index t 1 * 1 ≤ (i 1).val ∧ (i 1).val < win0_1.index t 1 * 1 + 1; rw [e1]; omega
  | ⟨2, _⟩ => show win0_1.index t 2 * 512 ≤ (i 2).val ∧ (i 2).val < win0_1.index t 2 * 512 + 512; rw [e2]; omega
  | ⟨3, _⟩ => show win0_1.index t 3 * 512 ≤ (i 3).val ∧ (i 3).val < win0_1.index t 3 * 512 + 512; rw [e3]; omega

/-- THE RESULT ARRAY after the run is the dark channel of the argument. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The run, read: the result array at the dark channel of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.DarkValue

end
-- ==== Proof.RefTerm.lean ====
/-
  What the reference program computes of its argument, as ONE function: the minimum over the three colour channels
  of every pixel, the 512 × 512 image continued by reflection about its border to 526 × 526 (seven pixels on each side,
  rows first and columns after), and the minimum over every 15 × 15 window of the continued image.

  The continuation is written in the program as a function that cuts seven rows (columns) next to a border, reverses
  their order and puts them outside that border; each of its four joins is a stage here.
-/
import proofs.«127667_j8375186227709_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The value, stage by stage

Each stage of the continuation is a function of the array before it, over any element type: none of them looks at
an element. -/

section Stages

variable {α : Type}

/-- Seven rows above the image: rows 1 … 7 in reverse order (row 7 first), then the image. 519 rows. -/
def addTop (y : S16x1x512x512.Idx → α) : S16x1x519x512.Idx → α :=
  concatenate S16x1x519x512 2
    [⟨S16x1x7x512, Host.reverse [2] (extractStridedSlice S16x1x7x512 ![0, 0, 1, 0] y slices_S16x1x512x512_S16x1x7x512_0_0_1_0)⟩,
     ⟨S16x1x512x512, y⟩]
    concatenates_S16x1x7x512_S16x1x512x512_S16x1x519x512_d2

/-- Seven rows below: rows 511 … 517 of the 519 (rows 504 … 510 of the image) in reverse order. 526 rows. -/
def addBottom (w : S16x1x519x512.Idx → α) : S16x1x526x512.Idx → α :=
  concatenate S16x1x526x512 2
    [⟨S16x1x519x512, w⟩,
     ⟨S16x1x7x512, Host.reverse [2] (extractStridedSlice S16x1x7x512 ![0, 0, 511, 0] w slices_S16x1x519x512_S16x1x7x512_0_0_511_0)⟩]
    concatenates_S16x1x519x512_S16x1x7x512_S16x1x526x512_d2

/-- Seven columns to the left: columns 1 … 7 in reverse order, then the array. 519 columns. -/
def addLeft (w : S16x1x526x512.Idx → α) : S16x1x526x519.Idx → α :=
  concatenate S16x1x526x519 3
    [⟨S16x1x526x7, Host.reverse [3] (extractStridedSlice S16x1x526x7 ![0, 0, 0, 1] w slices_S16x1x526x512_S16x1x526x7_0_0_0_1)⟩,
     ⟨S16x1x526x512, w⟩]
    concatenates_S16x1x526x7_S16x1x526x512_S16x1x526x519_d3

/-- Seven columns to the right: columns 511 … 517 of the 519 in reverse order. 526 columns. -/
def addRight (w : S16x1x526x519.Idx → α) : S16x1x526x526.Idx → α :=
  concatenate S16x1x526x526 3
    [⟨S16x1x526x519, w⟩,
     ⟨S16x1x526x7, Host.reverse [3] (extractStridedSlice S16x1x526x7 ![0, 0, 0, 511] w slices_S16x1x526x519_S16x1x526x7_0_0_0_511)⟩]
    concatenates_S16x1x526x519_S16x1x526x7_S16x1x526x526_d3

/-- The image continued by reflection on all four sides: 526 × 526. -/
def padded (y : S16x1x512x512.Idx → α) : S16x1x526x526.Idx → α :=
  addRight (addLeft (addBottom (addTop y)))

end Stages

/-- The minimum over the three channels of every pixel, started from plus infinity, as an array with one channel. -/
def chanMin (x : (⟨S16x3x512x512, .f32⟩ : BufTy).Contents (Elt F)) : (⟨S16x1x512x512, .f32⟩ : BufTy).Contents (Elt F) :=
  broadcastInDim S16x1x512x512 ![0, 2, 3] bcast_S16x512x512_S16x1x512x512_0_2_3
    (Host.reduce FloatOps.minimumf x (constant S_ .f32 0x7F800000#32) reducesTo_S16x3x512x512_S16x512x512_d1 h_S_)

/-- The minimum over every 15 × 15 window of a 526 × 526 array, started from plus infinity: 512 × 512 windows. -/
def windowMin (w : (⟨S16x1x526x526, .f32⟩ : BufTy).Contents (Elt F)) : (⟨S16x1x512x512, .f32⟩ : BufTy).Contents (Elt F) :=
  Host.reduceWindow FloatOps.minimumf ![1, 1, 15, 15] ![1, 1, 1, 1] ![0, 0, 0, 0] ![0, 0, 0, 0] w
    (broadcastInDim S_ ![] bcast_S_S_ (constant S_ .f32 0x7F800000#32))
    reduceWindows_S16x1x526x526_S16x1x512x512_w1s1p0_0_w1s1p0_0_w15s1p0_0_w15s1p0_0 h_S_

/-- What the reference computes of its argument: the window minimum of the reflected continuation of the channel
    minimum. -/
def refTerm (x : (⟨S16x3x512x512, .f32⟩ : BufTy).Contents (Elt F)) : (⟨S16x1x512x512, .f32⟩ : BufTy).Contents (Elt F) :=
  windowMin (padded (chanMin x))

end Cert.ReferenceIdeal.RefRun

end
-- ==== Proof.RefRun.lean ====
/-
  The reference program's run: its @main as one straight line of host operations, and what the result
  buffer holds at the end — the function `refTerm` of what the argument buffer held at the start.

  The continuation of the image is written in the program as a function; its operations are listed here at the place
  of the call, over the buffers that call names.
-/
import proofs.«127667_j8375186227709_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The program as a straight line -/

/-- @main's operations in order, the continuation's sixteen at the place of its call (each reversal one operation
    into the buffer its own call names): twenty-three in all, one per buffer other than the argument's. -/
abbrev ops : List (HloOp τ sig (Elt F)) :=
  [ nullary main_cst (constant S_ .f32 0x7F800000#32),
    binary main_arg0 main_cst main_v0 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v0 main_v1 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32),
    TRef.unary (.of main_v1 : TRef sig ⟨S16x1x512x512, .f32⟩) main_call0.v0 (extractStridedSlice S16x1x1x512 ![0, 0, 0, 0] · slices_S16x1x512x512_S16x1x1x512_0_0_0_0),
    TRef.unary (.of main_v1 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v1 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3),
    nullary main_cst_0 (constant S_ .f32 0x7F800000#32),
    unary main_cst_0 main_v3 (broadcastInDim S_ ![] bcast_S_S_ : (⟨S_, .f32⟩ : BufTy).Contents (Elt F) → (⟨S_, .f32⟩ : BufTy).Contents (Elt F)),
    binary main_v2 main_v3 main_v4 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)) ]

/-- @main is that straight line: the continuation's and the reversals' definitions opened at their calls, the calls'
    records at their fields, and the sequencing reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore's own only. -/
theorem ops_sub : (ops : List (HloOp τ sig (Elt F))).Forall fun op => op.bufs ⊆ tcRefs τ sig :=
  ⟨nullary_bufs_sub .., binary_bufs_sub .., unary_bufs_sub .., nullary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    nullary_bufs_sub .., unary_bufs_sub .., binary_bufs_sub ..⟩

/-! ## What the buffers hold after the line -/

/-- A value written to a buffer through its typed reference and read back through the same reference is the value:
    the two transports along the buffer's type equation cancel. -/
theorem ofBuf_toBuf {Val : EltTy → Type} {T : BufTy} (x : TRef sig T) (v : T.Contents Val) : x.ofBuf (x.toBuf v) = v := by
  obtain ⟨r, h, h2, h3⟩ := x
  subst h
  rfl

attribute [local irreducible] Host.reduce Host.reduceWindow concatenate in
/-- After the twenty-three operations the result buffer holds `refTerm` of what the argument buffer held before them.
    Each operation's result is read at its own buffer and every other buffer is passed over; inside the continuation
    every value is written through a typed reference and read back through the same one, which cancels; what is left
    is the composition of the operations' functions, and the stages' definitions open to exactly that composition. The
    two reductions and the joins stay closed throughout: the equation never looks inside them. -/
theorem out_eq (V : Valuation τ sig (Elt F)) :
    after ops V (Proc.devRef .tc main_v4) = refTerm (V (Proc.devRef .tc main_arg0)) := by
  after_results
  beta_reduce
  repeat rw [ofBuf_toBuf]
  -- the continuation's argument, read through its typed reference, is the channel minimum
  have e1 : (TRef.of main_v1 : TRef sig ⟨S16x1x512x512, .f32⟩).ofBuf
      (broadcastInDim S16x1x512x512 ![0, 2, 3] bcast_S16x512x512_S16x1x512x512_0_2_3
        (Host.reduce FloatOps.minimumf (V (Proc.devRef .tc main_arg0)) (constant S_ .f32 0x7F800000#32)
          reducesTo_S16x3x512x512_S16x512x512_d1 h_S_)) = chanMin (V (Proc.devRef .tc main_arg0)) := rfl
  rw [e1]
  unfold refTerm padded windowMin addRight addLeft addBottom addTop
  rfl

/-- No operation writes the argument buffer. -/
theorem arg0_eq (V : Valuation τ sig (Elt F)) :
    after ops V (Proc.devRef .tc main_arg0) = V (Proc.devRef .tc main_arg0) := by
  after_results

/-! ## The run -/

/-- On the device, for any float values, from any memory with zero counters: every weakly fair execution of @main
    terminates with the result buffer at `refTerm` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefPad.lean ====
/-
  The reflected continuation of an image, read entry by entry.

  The program builds the 526 × 526 array in four joins. Above the image go its rows 1 … 7 in reverse order, so row `r`
  of the first seven is image row `7 - r` and row `r` after them is image row `r - 7`. Below the 519 rows so obtained go
  their rows 511 … 517 in reverse order, so row `r` from 519 on is row `1036 - r` of the 519. The columns are continued
  in the same two steps. Composed, padded position `r` on either axis is image position `7 - r`, `r - 7` or `1029 - r`:
  the reflection about the border pixel.

  Nothing here looks at an entry, so every statement is over an arbitrary element type.
-/
import proofs.«127667_j8375186227709_2_alg».proof.Proof.RefTerm
import proofs.«127667_j8375186227709_2_alg».proof.Proof.DarkSpec
import Idealize.ShloMosaic.Lib.Pipeline.Value
import Idealize.ShloMosaic.Lib.ValueIdx

noncomputable section

namespace Cert.ReferenceIdeal.RefPad

open Cert.ReferenceIdeal Cert.ReferenceIdeal.Gen Cert.ReferenceIdeal.RefRun Idealize.ShloMosaic Idealize.ShloMosaic.ValueIdx

variable {α : Type}

/-! ## Where each join reads -/

/-- Position `r` of the 519 (seven reversed, then the 512) as a position of the 512. -/
def topIdx (r : Fin 519) : Fin 512 := ⟨if r.val < 7 then 7 - r.val else r.val - 7, by split <;> omega⟩

/-- Position `r` of the 526 (the 519, then seven reversed) as a position of the 519. -/
def botIdx (r : Fin 526) : Fin 519 := ⟨if r.val < 519 then r.val else 1036 - r.val, by split <;> omega⟩

/-- The two steps composed are the reflection about the border. -/
theorem topIdx_botIdx (r : Fin 526) : topIdx (botIdx r) = Cert.Dark.reflF r := by
  apply Fin.ext
  simp only [topIdx, botIdx, Cert.Dark.reflF_val, Cert.Dark.refl]
  split_ifs <;> omega

/-! ## The four joins at an index -/

theorem addTop_apply (y : S16x1x512x512.Idx → α) (b : Fin 16) (u : Fin 1) (r : Fin 519) (s : Fin 512) :
    addTop y (ix4 b u r s) = y (ix4 b u (topIdx r) s) := by
  unfold addTop
  by_cases h : r.val < 7
  · refine (concatenate_pair_apply_left (t := S16x1x519x512) (s₁ := S16x1x7x512) (s₂ := S16x1x512x512) (2 : Fin 4) _ _ _ (ix4 b u r s) rfl (ix4 b u (⟨r.val, h⟩ : Fin 7) s) ?_).trans ?_
    · intro a; match a with | ⟨0, _⟩ => rfl | ⟨1, _⟩ => rfl | ⟨2, _⟩ => rfl | ⟨3, _⟩ => rfl
    · unfold Host.reverse
      refine extractStridedSlice_apply _ _ _ _ (ix4 b u (topIdx r) s) ?_
      intro a; match a with
      | ⟨0, _⟩ => show b.val = 0 + b.val; omega
      | ⟨1, _⟩ => show u.val = 0 + u.val; omega
      | ⟨2, _⟩ => show (if r.val < 7 then 7 - r.val else r.val - 7) = 1 + (7 - (r.val + 1)); rw [if_pos h]; omega
      | ⟨3, _⟩ => show s.val = 0 + s.val; omega
  · refine (concatenate_pair_apply_right (t := S16x1x519x512) (s₁ := S16x1x7x512) (s₂ := S16x1x512x512) (2 : Fin 4) _ _ _ (ix4 b u r s) rfl rfl (ix4 b u (topIdx r) s) ?_ ?_).trans rfl
    · intro a ha; match a with
      | ⟨0, _⟩ => rfl
      | ⟨1, _⟩ => rfl
      | ⟨2, _⟩ => exact absurd rfl ha
      | ⟨3, _⟩ => rfl
    · show (if r.val < 7 then 7 - r.val else r.val - 7) + 7 = r.val; rw [if_neg h]; omega

theorem addBottom_apply (w : S16x1x519x512.Idx → α) (b : Fin 16) (u : Fin 1) (r : Fin 526) (s : Fin 512) :
    addBottom w (ix4 b u r s) = w (ix4 b u (botIdx r) s) := by
  unfold addBottom
  by_cases h : r.val < 519
  · refine (concatenate_pair_apply_left (t := S16x1x526x512) (s₁ := S16x1x519x512) (s₂ := S16x1x7x512) (2 : Fin 4) _ _ _ (ix4 b u r s) rfl (ix4 b u (botIdx r) s) ?_).trans rfl
    intro a; match a with
    | ⟨0, _⟩ => rfl
    | ⟨1, _⟩ => rfl
    | ⟨2, _⟩ => show (if r.val < 519 then r.val else 1036 - r.val) = r.val; rw [if_pos h]
    | ⟨3, _⟩ => rfl
  · have h7 : r.val - 519 < 7 := by have := r.isLt; omega
    refine (concatenate_pair_apply_right (t := S16x1x526x512) (s₁ := S16x1x519x512) (s₂ := S16x1x7x512) (2 : Fin 4) _ _ _ (ix4 b u r s) rfl rfl (ix4 b u (⟨r.val - 519, h7⟩ : Fin 7) s) ?_ ?_).trans ?_
    · intro a ha; match a with
      | ⟨0, _⟩ => rfl
      | ⟨1, _⟩ => rfl
      | ⟨2, _⟩ => exact absurd rfl ha
      | ⟨3, _⟩ => rfl
    · show r.val - 519 + 519 = r.val; omega
    · unfold Host.reverse
      refine extractStridedSlice_apply _ _ _ _ (ix4 b u (botIdx r) s) ?_
      intro a; match a with
      | ⟨0, _⟩ => show b.val = 0 + b.val; omega
      | ⟨1, _⟩ => show u.val = 0 + u.val; omega
      | ⟨2, _⟩ => show (if r.val < 519 then r.val else 1036 - r.val) = 511 + (7 - (r.val - 519 + 1)); rw [if_neg h]; omega
      | ⟨3, _⟩ => show s.val = 0 + s.val; omega

theorem addLeft_apply (w : S16x1x526x512.Idx → α) (b : Fin 16) (u : Fin 1) (r : Fin 526) (s : Fin 519) :
    addLeft w (ix4 b u r s) = w (ix4 b u r (topIdx s)) := by
  unfold addLeft
  by_cases h : s.val < 7
  · refine (concatenate_pair_apply_left (t := S16x1x526x519) (s₁ := S16x1x526x7) (s₂ := S16x1x526x512) (3 : Fin 4) _ _ _ (ix4 b u r s) rfl (ix4 b u r (⟨s.val, h⟩ : Fin 7)) ?_).trans ?_
    · intro a; match a with | ⟨0, _⟩ => rfl | ⟨1, _⟩ => rfl | ⟨2, _⟩ => rfl | ⟨3, _⟩ => rfl
    · unfold Host.reverse
      refine extractStridedSlice_apply _ _ _ _ (ix4 b u r (topIdx s)) ?_
      intro a; match a with
      | ⟨0, _⟩ => show b.val = 0 + b.val; omega
      | ⟨1, _⟩ => show u.val = 0 + u.val; omega
      | ⟨2, _⟩ => show r.val = 0 + r.val; omega
      | ⟨3, _⟩ => show (if s.val < 7 then 7 - s.val else s.val - 7) = 1 + (7 - (s.val + 1)); rw [if_pos h]; omega
  · refine (concatenate_pair_apply_right (t := S16x1x526x519) (s₁ := S16x1x526x7) (s₂ := S16x1x526x512) (3 : Fin 4) _ _ _ (ix4 b u r s) rfl rfl (ix4 b u r (topIdx s)) ?_ ?_).trans rfl
    · intro a ha; match a with
      | ⟨0, _⟩ => rfl
      | ⟨1, _⟩ => rfl
      | ⟨2, _⟩ => rfl
      | ⟨3, _⟩ => exact absurd rfl ha
    · show (if s.val < 7 then 7 - s.val else s.val - 7) + 7 = s.val; rw [if_neg h]; omega

theorem addRight_apply (w : S16x1x526x519.Idx → α) (b : Fin 16) (u : Fin 1) (r : Fin 526) (s : Fin 526) :
    addRight w (ix4 b u r s) = w (ix4 b u r (botIdx s)) := by
  unfold addRight
  by_cases h : s.val < 519
  · refine (concatenate_pair_apply_left (t := S16x1x526x526) (s₁ := S16x1x526x519) (s₂ := S16x1x526x7) (3 : Fin 4) _ _ _ (ix4 b u r s) rfl (ix4 b u r (botIdx s)) ?_).trans rfl
    intro a; match a with
    | ⟨0, _⟩ => rfl
    | ⟨1, _⟩ => rfl
    | ⟨2, _⟩ => rfl
    | ⟨3, _⟩ => show (if s.val < 519 then s.val else 1036 - s.val) = s.val; rw [if_pos h]
  · have h7 : s.val - 519 < 7 := by have := s.isLt; omega
    refine (concatenate_pair_apply_right (t := S16x1x526x526) (s₁ := S16x1x526x519) (s₂ := S16x1x526x7) (3 : Fin 4) _ _ _ (ix4 b u r s) rfl rfl (ix4 b u r (⟨s.val - 519, h7⟩ : Fin 7)) ?_ ?_).trans ?_
    · intro a ha; match a with
      | ⟨0, _⟩ => rfl
      | ⟨1, _⟩ => rfl
      | ⟨2, _⟩ => rfl
      | ⟨3, _⟩ => exact absurd rfl ha
    · show s.val - 519 + 519 = s.val; omega
    · unfold Host.reverse
      refine extractStridedSlice_apply _ _ _ _ (ix4 b u r (botIdx s)) ?_
      intro a; match a with
      | ⟨0, _⟩ => show b.val = 0 + b.val; omega
      | ⟨1, _⟩ => show u.val = 0 + u.val; omega
      | ⟨2, _⟩ => show r.val = 0 + r.val; omega
      | ⟨3, _⟩ => show (if s.val < 519 then s.val else 1036 - s.val) = 511 + (7 - (s.val - 519 + 1)); rw [if_neg h]; omega

/-! ## The continuation at an index -/

/-- Entry `(r, s)` of the continued image is entry (reflection of `r`, reflection of `s`) of the image. -/
theorem padded_apply (y : S16x1x512x512.Idx → α) (b : Fin 16) (u : Fin 1) (r s : Fin 526) :
    padded y (ix4 b u r s) = y (ix4 b u (Cert.Dark.reflF r) (Cert.Dark.reflF s)) := by
  unfold padded
  rw [addRight_apply, addLeft_apply, addBottom_apply, addTop_apply, topIdx_botIdx, topIdx_botIdx]

end Cert.ReferenceIdeal.RefPad

end
-- ==== Proof.RefWindow.lean ====
/-
  The reference's window minimum, read by its lower bounds.

  The window reduction folds `min`, from +∞, over the 225 positions of a 1 × 1 × 15 × 15 window laid row-major over the
  526 × 526 continued image; with no padding of its own and stride one, position `(·, ·, di, dj)` of the window of
  result pixel `(p, q)` is the entry `(p + di, q + dj)` of the operand, which is always inside it (`p + 14 ≤ 525`). A left
  fold of `min` has the lower bounds of its start value and of all its entries, so the lower bounds of the result at
  `(b, ·, p, q)` are the common lower bounds of the 225 entries `w (b, ·, p + di, q + dj)`.
-/
import proofs.«127667_j8375186227709_2_alg».proof.Proof.RefTerm
import proofs.«127667_j8375186227709_2_alg».proof.Proof.DarkSpec
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.RefRun Cert.Dark

/-- The window's shape. -/
abbrev W15 : Shape := ⟨4, ![1, 1, 15, 15]⟩

/-- The reduction starts from +∞. -/
theorem init_eq_top :
    broadcastInDim S_ ![] Gen.bcast_S_S_ (constant (F := Ideal) S_ .f32 0x7F800000#32) (Shape.Idx.first Gen.h_S_) = (⊤ : EReal) := by
  show Ideal.ofBits .f32 0x7F800000#32 = ⊤
  simp [Ideal.ofBits, Ideal.ieee]

/-- The lower bounds of the window minimum at `(b, ·, p, q)` are the common lower bounds of the operand's entries over
    the 15 × 15 window from `(p, q)` on. Window position `n` of the 225, read row-major, has coordinates
    `(0, 0, di, dj)`, and every `(di, dj)` is the coordinates of some position. -/
theorem le_windowMin_iff (w : (⟨S16x1x526x526, .f32⟩ : BufTy).Contents (Elt Ideal)) (b : Fin 16) (u : Fin 1) (p q : Fin 512)
    (z : EReal) :
    z ≤ windowMin (F := Ideal) w (ix4 b u p q) ↔ ∀ di dj : Fin 15, z ≤ w (ix4 b u (wpos p di) (wpos q dj)) := by
  unfold windowMin Host.reduceWindow
  dsimp only
  refine (le_foldl_min_iff _ z _ _).trans ?_
  have hb := b.isLt
  have hu : u.val = 0 := by have := u.isLt; omega
  have hp := p.isLt
  have hq := q.isLt
  constructor
  · rintro ⟨-, h⟩ di dj
    have hdi := di.isLt
    have hdj := dj.isLt
    have e : W15.rowMajor.symm (W15.rowMajor (ix4 (0 : Fin 1) (0 : Fin 1) di dj)) = ix4 (0 : Fin 1) (0 : Fin 1) di dj :=
      Equiv.symm_apply_apply _ _
    have e0 : (W15.rowMajor.symm (W15.rowMajor (ix4 (0 : Fin 1) (0 : Fin 1) di dj)) 0).val = 0 := by rw [e] <;> rfl
    have e1 : (W15.rowMajor.symm (W15.rowMajor (ix4 (0 : Fin 1) (0 : Fin 1) di dj)) 1).val = 0 := by rw [e] <;> rfl
    have e2 : (W15.rowMajor.symm (W15.rowMajor (ix4 (0 : Fin 1) (0 : Fin 1) di dj)) 2).val = di.val := by rw [e] <;> rfl
    have e3 : (W15.rowMajor.symm (W15.rowMajor (ix4 (0 : Fin 1) (0 : Fin 1) di dj)) 3).val = dj.val := by rw [e] <;> rfl
    have hn := h (W15.rowMajor (ix4 (0 : Fin 1) (0 : Fin 1) di dj)) (List.mem_finRange _)
    split at hn
    · refine le_of_le_of_eq hn (congrArg w (funext fun a => Fin.ext ?_))
      match a with
      | ⟨0, _⟩ =>
        show b.val * 1 + (W15.rowMajor.symm (W15.rowMajor (ix4 (0 : Fin 1) (0 : Fin 1) di dj)) 0).val - 0 = b.val
        omega
      | ⟨1, _⟩ =>
        show u.val * 1 + (W15.rowMajor.symm (W15.rowMajor (ix4 (0 : Fin 1) (0 : Fin 1) di dj)) 1).val - 0 = u.val
        omega
      | ⟨2, _⟩ =>
        show p.val * 1 + (W15.rowMajor.symm (W15.rowMajor (ix4 (0 : Fin 1) (0 : Fin 1) di dj)) 2).val - 0 = p.val + di.val
        omega
      | ⟨3, _⟩ =>
        show q.val * 1 + (W15.rowMajor.symm (W15.rowMajor (ix4 (0 : Fin 1) (0 : Fin 1) di dj)) 3).val - 0 = q.val + dj.val
        omega
    · rename_i hneg
      refine absurd (fun a => ?_) hneg
      match a with
      | ⟨0, _⟩ =>
        exact ⟨Nat.zero_le _, by
          show b.val * 1 + (W15.rowMajor.symm (W15.rowMajor (ix4 (0 : Fin 1) (0 : Fin 1) di dj)) 0).val - 0 < 16
          omega⟩
      | ⟨1, _⟩ =>
        exact ⟨Nat.zero_le _, by
          show u.val * 1 + (W15.rowMajor.symm (W15.rowMajor (ix4 (0 : Fin 1) (0 : Fin 1) di dj)) 1).val - 0 < 1
          omega⟩
      | ⟨2, _⟩ =>
        exact ⟨Nat.zero_le _, by
          show p.val * 1 + (W15.rowMajor.symm (W15.rowMajor (ix4 (0 : Fin 1) (0 : Fin 1) di dj)) 2).val - 0 < 526
          omega⟩
      | ⟨3, _⟩ =>
        exact ⟨Nat.zero_le _, by
          show q.val * 1 + (W15.rowMajor.symm (W15.rowMajor (ix4 (0 : Fin 1) (0 : Fin 1) di dj)) 3).val - 0 < 526
          omega⟩
  · intro h
    refine ⟨by rw [init_eq_top]; exact le_top, fun n _ => ?_⟩
    have hk0 : (W15.rowMajor.symm n 0).val < 1 := (W15.rowMajor.symm n 0).isLt
    have hk1 : (W15.rowMajor.symm n 1).val < 1 := (W15.rowMajor.symm n 1).isLt
    have hk2 : (W15.rowMajor.symm n 2).val < 15 := (W15.rowMajor.symm n 2).isLt
    have hk3 : (W15.rowMajor.symm n 3).val < 15 := (W15.rowMajor.symm n 3).isLt
    split
    · refine le_of_le_of_eq (h (W15.rowMajor.symm n 2) (W15.rowMajor.symm n 3)) (congrArg w (funext fun a => Fin.ext ?_))
      match a with
      | ⟨0, _⟩ => show b.val = b.val * 1 + (W15.rowMajor.symm n 0).val - 0; omega
      | ⟨1, _⟩ => show u.val = u.val * 1 + (W15.rowMajor.symm n 1).val - 0; omega
      | ⟨2, _⟩ => show p.val + (W15.rowMajor.symm n 2).val = p.val * 1 + (W15.rowMajor.symm n 2).val - 0; omega
      | ⟨3, _⟩ => show q.val + (W15.rowMajor.symm n 3).val = q.val * 1 + (W15.rowMajor.symm n 3).val - 0; omega
    · rename_i hneg
      refine absurd (fun a => ?_) hneg
      match a with
      | ⟨0, _⟩ => exact ⟨Nat.zero_le _, by show b.val * 1 + (W15.rowMajor.symm n 0).val - 0 < 16; omega⟩
      | ⟨1, _⟩ => exact ⟨Nat.zero_le _, by show u.val * 1 + (W15.rowMajor.symm n 1).val - 0 < 1; omega⟩
      | ⟨2, _⟩ => exact ⟨Nat.zero_le _, by show p.val * 1 + (W15.rowMajor.symm n 2).val - 0 < 526; omega⟩
      | ⟨3, _⟩ => exact ⟨Nat.zero_le _, by show q.val * 1 + (W15.rowMajor.symm n 3).val - 0 < 526; omega⟩

end Cert.ReferenceIdeal.RefValue

end
-- ==== Proof.RefChanMin.lean ====
/-
  The reference's channel minimum, read by its lower bounds.

  A minimum reduction over the channel axis of `[16, 3, 512, 512]`, from +∞, is at each pixel of each image the fold of
  `min` over that pixel's three channel entries, in any order; broadcasting the result to `[16, 1, 512, 512]` only
  inserts a unit axis. Its lower bounds at `(b, ·, r, s)` are therefore the common lower bounds of the three entries
  `x (b, c, r, s)`.
-/
import proofs.«127667_j8375186227709_2_alg».proof.Proof.RefTerm
import proofs.«127667_j8375186227709_2_alg».proof.Proof.DarkSpec
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.RefRun Cert.Dark

/-- Dropping the channel axis of `[16, 3, 512, 512]` leaves `[16, 512, 512]`. -/
theorem hred : S16x3x512x512.Reduces [1] S16x512x512 := by decide

/-- Over result index `(b, r, s)` the channel coordinate `k` sits second: the source index `(b, k, r, s)`. -/
theorem lift_eq (b : Fin 16) (r s : Fin 512) (k : Fin 3) : hred.lift (ix3 b r s) k = ix4 b k r s := by
  funext c
  match c with
  | ⟨0, _⟩ => rfl
  | ⟨1, _⟩ => rfl
  | ⟨2, _⟩ => rfl
  | ⟨3, _⟩ => rfl

/-- The lower bounds of the channel minimum at `(b, ·, r, s)` are the common lower bounds of the three channels there. -/
theorem le_chanMin_iff (x : (⟨S16x3x512x512, .f32⟩ : BufTy).Contents (Elt Ideal)) (b : Fin 16) (u : Fin 1) (r s : Fin 512)
    (z : EReal) : z ≤ chanMin (F := Ideal) x (ix4 b u r s) ↔ ∀ c : Fin 3, z ≤ x (ix4 b c r s) := by
  have e : chanMin (F := Ideal) x (ix4 b u r s)
      = (Finset.univ : Finset (Fin 3)).fold min (Ideal.ofBits .f32 0x7F800000#32) (fun k => x (ix4 b k r s)) := by
    unfold chanMin
    refine (broadcastInDim_apply _ _ _ (ix4 b u r s) (ix3 b r s) (fun a => match a with
      | ⟨0, _⟩ => rfl
      | ⟨1, _⟩ => rfl
      | ⟨2, _⟩ => rfl)).trans ?_
    refine (Host.reduce_eq_fold_single _ _ _ _ hred _ _).trans ?_
    refine congrArg (Finset.fold _ _ · _) (funext fun (k : Fin 3) => ?_)
    exact congrArg x (lift_eq b r s k)
  rw [e, Finset.le_fold_min]
  have htop : Ideal.ofBits .f32 0x7F800000#32 = ⊤ := by simp [Ideal.ofBits, Ideal.ieee]
  rw [htop]
  exact ⟨fun h c => h.2 c (Finset.mem_univ _), fun h => ⟨le_top, fun c _ => h c⟩⟩

end Cert.ReferenceIdeal.RefValue

end
-- ==== Proof.RefValue.lean ====
/-
  The reference's result is the dark channel of its argument.

  At every pixel both sides have the same lower bounds: the window minimum asks for the 15 × 15 entries of the continued
  image from `(p, q)` on, the continuation sends each padded position to its reflected image position, and the channel
  minimum asks for the three channels — which is the description of the dark channel's infimum. Two extended reals
  with the same lower bounds are equal.
-/
import proofs.«127667_j8375186227709_2_alg».proof.Proof.RefPad
import proofs.«127667_j8375186227709_2_alg».proof.Proof.RefWindow
import proofs.«127667_j8375186227709_2_alg».proof.Proof.RefChanMin

noncomputable section

namespace Cert.ReferenceIdeal.RefValue

open Idealize.ShloMosaic Idealize.ShloMosaic.ValueIdx Cert.ReferenceIdeal Cert.ReferenceIdeal.RefRun Cert.Dark

/-- What the reference computes of its argument is the batch's dark channel. -/
theorem refTerm_eq_G (x : (⟨S16x3x512x512, .f32⟩ : BufTy).Contents (Elt Ideal)) : refTerm (F := Ideal) x = G x := by
  funext i
  obtain ⟨b, u, p, q, rfl⟩ : ∃ (b : Fin 16) (u : Fin 1) (p q : Fin 512), i = ix4 b u p q := ⟨i 0, i 1, i 2, i 3, eq_ix4 i⟩
  refine eq_of_le_iff fun z => ?_
  rw [G_apply, le_dark_iff]
  unfold refTerm
  rw [le_windowMin_iff]
  constructor
  · intro h di dj c
    have h1 := h di dj
    rw [Cert.ReferenceIdeal.RefPad.padded_apply, le_chanMin_iff] at h1
    exact h1 c
  · intro h di dj
    rw [Cert.ReferenceIdeal.RefPad.padded_apply, le_chanMin_iff]
    exact fun c => h di dj c

end Cert.ReferenceIdeal.RefValue

end
-- ==== Proof.lean ====
/-
  The certificate of a dark-channel kernel against its jnp reference.

  THE PROGRAMS. For a batch `x : [16, 3, 512, 512]` both compute, per image, the minimum over the three channels, continue
  it by reflection about the border (seven pixels on each side), and take the minimum over every 15 × 15 window. The
  kernel does it once per image on a grid of sixteen points: a lane-wise channel reduction, the reflection by
  concatenating single columns and rows, and each window pass as four rotate-and-minimum steps with shifts 1, 2, 4, 7
  (runs of 2, 4, 8 and then 15 consecutive entries), first along the columns and then along the rows. The reference
  reduces over the channel axis, reflects rows and then columns by slicing, reversing and concatenating, and folds the
  minimum over the 225 positions of each window.

  THE ARGUMENT. Every value either program computes is a minimum of entries of `x`, and a minimum is determined by its
  lower bounds; read that way both results have, at pixel `(p, q)` of image `b`, exactly the lower bounds common to
  `x (b, c, refl (p + di), refl (q + dj))` over the three channels and the 15 × 15 offsets — the dark channel `G x`
  (Proof/DarkSpec.lean). Nothing is asked of the entries: the order of a linear order has no exceptional points, so the
  precondition that the inputs are finite is never opened. The kernel's result array is `G` of its argument
  (Proof/KernelValue.lean over the stored value read at a pixel, Proof/KernelPayload.lean); the reference's run ends with
  its composed term (Proof/RefRun.lean), which is `G` of its argument (Proof/RefValue.lean).

  The three frames: the kernel's two are the generated frame certificates; the reference's is its run with the result
  dropped. The idealization rewrote nothing, so `preserves` has no conjunct.
-/
import proofs.«127667_j8375186227709_2_alg».proof.Defs
import proofs.«127667_j8375186227709_2_alg».proof.Proof.Gen.Kernel
import proofs.«127667_j8375186227709_2_alg».proof.Proof.Gen.Kernel.Skeleton
import proofs.«127667_j8375186227709_2_alg».proof.Proof.Gen.Kernel.Launch
import proofs.«127667_j8375186227709_2_alg».proof.Proof.Gen.Kernel.Points
import proofs.«127667_j8375186227709_2_alg».proof.Proof.Gen.Kernel.Frame
import proofs.«127667_j8375186227709_2_alg».proof.Proof.Gen.KernelIdeal
import proofs.«127667_j8375186227709_2_alg».proof.Proof.Gen.KernelIdeal.Skeleton
import proofs.«127667_j8375186227709_2_alg».proof.Proof.Gen.KernelIdeal.Launch
import proofs.«127667_j8375186227709_2_alg».proof.Proof.Gen.KernelIdeal.Points
import proofs.«127667_j8375186227709_2_alg».proof.Proof.Gen.KernelIdeal.Frame
import proofs.«127667_j8375186227709_2_alg».proof.Proof.Gen.KernelIdeal.Value
import proofs.«127667_j8375186227709_2_alg».proof.Proof.Gen.ReferenceIdeal
import proofs.«127667_j8375186227709_2_alg».proof.Proof.Gen.Pre_finite_inputs
import proofs.«127667_j8375186227709_2_alg».proof.Proof.KernelValue
import proofs.«127667_j8375186227709_2_alg».proof.Proof.RefRun
import proofs.«127667_j8375186227709_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization is the program's own text read at the ideal instance: nothing to state. -/
theorem preserves : Cert.preserves_Kernel_KernelIdeal := trivial

/-- From memories agreeing on the argument, both programs end with the dark channel of that argument. -/
theorem algebraic : Cert.algebraic_KernelIdeal_ReferenceIdeal := by
  intro m ρ m' ρ' _ hagree
  refine ⟨fun c => Cert.Dark.G (m ((c.tc : Thread Cert.KernelIdeal.nD Cert.KernelIdeal.τ).loc Cert.KernelIdeal.main_arg0)),
    Cert.KernelIdeal.DarkValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
